-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v80)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v80) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S2x800000 : Shape := ⟨2, ![2, 800000]⟩
abbrev S800000 : Shape := ⟨1, ![800000]⟩
abbrev S512x128 : Shape := ⟨2, ![512, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S800000 : S_.BroadcastsInDim S800000 (![] : Fin 0 → Fin S800000.rank)
  reducesTo_S800000_S_d0 : S800000.ReducesTo [0] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S128x64 .f32) (main_arg6 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S50000x512 .f32) (main_arg1 : IVec S2x800000 32) (main_arg2 : FVec F S800000 .f32) (main_arg3 : FVec F S512x128 .f32) (main_arg4 : FVec F S128 .f32) (main_arg5 : FVec F S128x64 .f32) (main_arg6 : FVec F S64 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S512x128 .f32 := Host.absf main_arg3
  let main_cst_2 : FVec F S_ .f32 := constant S_ .f32 0x7F800000#32
  let main_v10 : FVec F S512x128 .f32 := broadcastInDim S512x128 ![] bcast_S_S512x128 main_cst_2
  let main_v11 : IVec S512x128 1 := cmpf .olt main_v9 main_v10
  let main_c_3 : IVec S_ 1 := constantI S_ 1 1#1
  let main_v12 : IVec S_ 1 := (fun x v => Host.reduce IntOp.andi x v reducesTo_S512x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_v13 main_v16
-- ==== Kernel.lean ====
abbrev S50000x512 : Shape := ⟨2, ![50000, 512]⟩
abbrev S2x800000 : Shape := ⟨2, ![2, 800000]⟩
abbrev S800000 : Shape := ⟨1, ![800000]⟩
abbrev S512x128 : Shape := ⟨2, ![512, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x50000 : Shape := ⟨2, ![1, 50000]⟩
abbrev S2x50000 : Shape := ⟨2, ![2, 50000]⟩
abbrev S2x850000 : Shape := ⟨2, ![2, 850000]⟩
abbrev S_ : Shape := ⟨0, ![]⟩
abbrev S850000 : Shape := ⟨1, ![850000]⟩
abbrev S1x850000 : Shape := ⟨2, ![1, 850000]⟩
abbrev S850000x1 : Shape := ⟨2, ![850000, 1]⟩
abbrev S50000x128 : Shape := ⟨2, ![50000, 128]⟩
abbrev S2000x512 : Shape := ⟨2, ![2000, 512]⟩
abbrev S2000x128 : Shape := ⟨2, ![2000, 128]⟩
abbrev S850000x128 : Shape := ⟨2, ![850000, 128]⟩
abbrev S1x128 : Shape := ⟨2, ![1, 128]⟩
abbrev S50000x64 : Shape := ⟨2, ![50000, 64]⟩
abbrev S2000x64 : Shape := ⟨2, ![2000, 64]⟩
abbrev S850000x64 : Shape := ⟨2, ![850000, 64]⟩
abbrev S1x64 : Shape := ⟨2, ![1, 64]⟩

abbrev nBuf : Space → Nat
  | .hbm => 110
  | .vmem => 20
  | .smem => 0
  | _ => 0

abbrev bufTy : (tb : Table) → Fin (tcTables nBuf tb) → BufTy
  | .hbm, ⟨0, _⟩ => ⟨S50000x512, .f32⟩
  | .hbm, ⟨1, _⟩ => ⟨S2x800000, .i32⟩
  | .hbm, ⟨2, _⟩ => ⟨S800000, .f32⟩
  | .hbm, ⟨3, _⟩ => ⟨S512x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S50000, .i32⟩
  | .hbm, ⟨8, _⟩ => ⟨S1x50000, .i32⟩
  | .hbm, ⟨9, _⟩ => ⟨S1x50000, .i32⟩
  | .hbm, ⟨10, _⟩ => ⟨S2x50000, .i32⟩
  | .hbm, ⟨11, _⟩ => ⟨S2x850000, .i32⟩
  | .hbm, ⟨12, _⟩ => ⟨S_, .f32⟩
  | .hbm, ⟨13, _⟩ => ⟨S50000, .f32⟩
  | .hbm, ⟨14, _⟩ => ⟨S850000, .f32⟩
  | .hbm, ⟨15, _⟩ => ⟨S1x850000, .i32⟩
  | .hbm, ⟨16, _⟩ => ⟨S850000, .i32⟩
  | .hbm, ⟨17, _⟩ => ⟨S1x850000, .i32⟩
  | .hbm, ⟨18, _⟩ => ⟨S850000, .i32⟩
  | .hbm, ⟨19, _⟩ => ⟨S_, .f32⟩
  | .hbm, ⟨20, _⟩ => ⟨S50000, .f32⟩
  | .hbm, ⟨21, _⟩ => ⟨S_, .i32⟩
  | .hbm, ⟨22, _⟩ => ⟨S850000, .i32⟩
  | .hbm, ⟨23, _⟩ => ⟨S850000, .i1⟩
  | .hbm, ⟨24, _⟩ => ⟨S_, .i32⟩
  | .hbm, ⟨25, _⟩ => ⟨S850000, .i32⟩
  | .hbm, ⟨26, _⟩ => ⟨S850000, .i32⟩
  | .hbm, ⟨27, _⟩ => ⟨S850000, .i32⟩
  | .hbm, ⟨28, _⟩ => ⟨S850000x1, .i32⟩
  | .hbm, ⟨29, _⟩ => ⟨S50000, .f32⟩
  | .hbm, ⟨30, _⟩ => ⟨S_, .f32⟩
  | .hbm, ⟨31, _⟩ => ⟨S50000, .f32⟩
  | .hbm, ⟨32, _⟩ => ⟨S50000, .i1⟩
  | .hbm, ⟨33, _⟩ => ⟨S50000, .f32⟩
  | .hbm, ⟨34, _⟩ => ⟨S_, .f32⟩
  | .hbm, ⟨35, _⟩ => ⟨S_, .f32⟩
  | .hbm, ⟨36, _⟩ => ⟨S50000, .f32⟩
  | .hbm, ⟨37, _⟩ => ⟨S50000, .f32⟩
  | .hbm, ⟨38, _⟩ => ⟨S_, .i32⟩
  | .hbm, ⟨39, _⟩ => ⟨S850000, .i32⟩
  | .hbm, ⟨40, _⟩ => ⟨S850000, .i1⟩
  | .hbm, ⟨41, _⟩ => ⟨S_, .i32⟩
  | .hbm, ⟨42, _⟩ => ⟨S850000, .i32⟩
  | .hbm, ⟨43, _⟩ => ⟨S850000, .i32⟩
  | .hbm, ⟨44, _⟩ => ⟨S850000, .i32⟩
  | .hbm, ⟨45, _⟩ => ⟨S850000x1, .i32⟩
  | .hbm, ⟨46, _⟩ => ⟨S850000, .f32⟩
  | .hbm, ⟨47, _⟩ => ⟨S850000, .f32⟩
  | .hbm, ⟨48, _⟩ => ⟨S_, .i32⟩
  | .hbm, ⟨49, _⟩ => ⟨S850000, .i32⟩
  | .hbm, ⟨50, _⟩ => ⟨S850000, .i1⟩
  | .hbm, ⟨51, _⟩ => ⟨S_, .i32⟩
  | .hbm, ⟨52, _⟩ => ⟨S850000, .i32⟩
  | .hbm, ⟨53, _⟩ => ⟨S850000, .i32⟩
  | .hbm, ⟨54, _⟩ => ⟨S850000, .i32⟩
  | .hbm, ⟨55, _⟩ => ⟨S850000x1, .i32⟩
  | .hbm, ⟨56, _⟩ => ⟨S850000, .f32⟩
  | .hbm, ⟨57, _⟩ => ⟨S850000, .f32⟩
  | .hbm, ⟨58, _⟩ => ⟨S50000x128, .f32⟩
  | .hbm, ⟨59, _⟩ => ⟨S850000x1, .f32⟩
  | .hbm, ⟨60, _⟩ => ⟨S_, .i32⟩
  | .hbm, ⟨61, _⟩ => ⟨S850000, .i32⟩
  | .hbm, ⟨62, _⟩ => ⟨S850000, .i1⟩
  | .hbm, ⟨63, _⟩ => ⟨S_, .i32⟩
  | .hbm, ⟨64, _⟩ => ⟨S850000, .i32⟩
  | .hbm, ⟨65, _⟩ => ⟨S850000, .i32⟩
  | .hbm, ⟨66, _⟩ => ⟨S850000, .i32⟩
  | .hbm, ⟨67, _⟩ => ⟨S850000x1, .i32⟩
  | .hbm, ⟨68, _⟩ => ⟨S850000x128, .f32⟩
  | .hbm, ⟨69, _⟩ => ⟨S850000x128, .f32⟩
  | .hbm, ⟨70, _⟩ => ⟨S850000x128, .f32⟩
  | .hbm, ⟨71, _⟩ => ⟨S_, .f32⟩
  | .hbm, ⟨72, _⟩ => ⟨S50000x128, .f32⟩
  | .hbm, ⟨73, _⟩ => ⟨S_, .i32⟩
  | .hbm, ⟨74, _⟩ => ⟨S850000, .i32⟩
  | .hbm, ⟨75, _⟩ => ⟨S850000, .i1⟩
  | .hbm, ⟨76, _⟩ => ⟨S_, .i32⟩
  | .hbm, ⟨77, _⟩ => ⟨S850000, .i32⟩
  | .hbm, ⟨78, _⟩ => ⟨S850000, .i32⟩
  | .hbm, ⟨79, _⟩ => ⟨S850000, .i32⟩
  | .hbm, ⟨80, _⟩ => ⟨S850000x1, .i32⟩
  | .hbm, ⟨81, _⟩ => ⟨S50000x128, .f32⟩
  | .hbm, ⟨82, _⟩ => ⟨S1x128, .f32⟩
  | .hbm, ⟨83, _⟩ => ⟨S50000x128, .f32⟩
  | .hbm, ⟨84, _⟩ => ⟨S50000x64, .f32⟩
  | .hbm, ⟨85, _⟩ => ⟨S850000x1, .f32⟩
  | .hbm, ⟨86, _⟩ => ⟨S_, .i32⟩
  | .hbm, ⟨87, _⟩ => ⟨S850000, .i32⟩
  | .hbm, ⟨88, _⟩ => ⟨S850000, .i1⟩
  | .hbm, ⟨89, _⟩ => ⟨S_, .i32⟩
  | .hbm, ⟨90, _⟩ => ⟨S850000, .i32⟩
  | .hbm, ⟨91, _⟩ => ⟨S850000, .i32⟩
  | .hbm, ⟨92, _⟩ => ⟨S850000, .i32⟩
  | .hbm, ⟨93, _⟩ => ⟨S850000x1, .i32⟩
  | .hbm, ⟨94, _⟩ => ⟨S850000x64, .f32⟩
  | .hbm, ⟨95, _⟩ => ⟨S850000x64, .f32⟩
  | .hbm, ⟨96, _⟩ => ⟨S850000x64, .f32⟩
  | .hbm, ⟨97, _⟩ => ⟨S_, .f32⟩
  | .hbm, ⟨98, _⟩ => ⟨S50000x64, .f32⟩
  | .hbm, ⟨99, _⟩ => ⟨S_, .i32⟩
  | .hbm, ⟨100, _⟩ => ⟨S850000, .i32⟩
  | .hbm, ⟨101, _⟩ => ⟨S850000, .i1⟩
  | .hbm, ⟨102, _⟩ => ⟨S_, .i32⟩
  | .hbm, ⟨103, _⟩ => ⟨S850000, .i32⟩
  | .hbm, ⟨104, _⟩ => ⟨S850000, .i32⟩
  | .hbm, ⟨105, _⟩ => ⟨S850000, .i32⟩
  | .hbm, ⟨106, _⟩ => ⟨S850000x1, .i32⟩
  | .hbm, ⟨107, _⟩ => ⟨S50000x64, .f32⟩
  | .hbm, ⟨108, _⟩ => ⟨S1x64, .f32⟩
  | .hbm, ⟨109, _⟩ => ⟨S50000x64, .f32⟩
  | .local _ .vmem, ⟨0, _⟩ => ⟨S2000x512, .f32⟩
  | .local _ .vmem, ⟨1, _⟩ => ⟨S2000x512, .f32⟩
  | .local _ .vmem, ⟨2, _⟩ => ⟨S512x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S1x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S128x64, .f32⟩
  | .local _ .vmem, ⟨13, _⟩ => ⟨S2000x64, .f32⟩
  | .local _ .vmem, ⟨14, _⟩ => ⟨S2000x64, .f32⟩
  | .local _ .vmem, ⟨15, _⟩ => ⟨S2000x64, .f32⟩
  | .local _ .vmem, ⟨16, _⟩ => ⟨S2000x64, .f32⟩
  | .local _ .vmem, ⟨17, _⟩ => ⟨S1x64, .f32⟩
  | .local _ .vmem, ⟨18, _⟩ => ⟨S2000x64, .f32⟩
  | .local _ .vmem, ⟨19, _⟩ => ⟨S2000x64, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_c_1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_3 : Ref sig .tc := ⟨.hbm, 34, rfl⟩
abbrev main_call0_v0 : Ref sig .tc := ⟨.hbm, 35, rfl⟩
abbrev main_call0_v1 : Ref sig .tc := ⟨.hbm, 36, rfl⟩
abbrev main_v22 : Ref sig .tc := ⟨.hbm, 37, rfl⟩
abbrev main_c_4 : Ref sig .tc := ⟨.hbm, 38, rfl⟩
abbrev main_v23 : Ref sig .tc := ⟨.hbm, 39, rfl⟩
abbrev main_v24 : Ref sig .tc := ⟨.hbm, 40, rfl⟩
abbrev main_c_5 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_c_8 : Ref sig .tc := ⟨.hbm, 60, rfl⟩
abbrev main_v41 : Ref sig .tc := ⟨.hbm, 61, rfl⟩
abbrev main_v42 : Ref sig .tc := ⟨.hbm, 62, rfl⟩
abbrev main_c_9 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_10 : Ref sig .tc := ⟨.hbm, 71, rfl⟩
abbrev main_v50 : Ref sig .tc := ⟨.hbm, 72, rfl⟩
abbrev main_c_11 : Ref sig .tc := ⟨.hbm, 73, rfl⟩
abbrev main_v51 : Ref sig .tc := ⟨.hbm, 74, rfl⟩
abbrev main_v52 : Ref sig .tc := ⟨.hbm, 75, rfl⟩
abbrev main_c_12 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_c_13 : Ref sig .tc := ⟨.hbm, 86, rfl⟩
abbrev main_v62 : Ref sig .tc := ⟨.hbm, 87, rfl⟩
abbrev main_v63 : Ref sig .tc := ⟨.hbm, 88, rfl⟩
abbrev main_c_14 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_cst_15 : Ref sig .tc := ⟨.hbm, 97, rfl⟩
abbrev main_v71 : Ref sig .tc := ⟨.hbm, 98, rfl⟩
abbrev main_c_16 : Ref sig .tc := ⟨.hbm, 99, rfl⟩
abbrev main_v72 : Ref sig .tc := ⟨.hbm, 100, rfl⟩
abbrev main_v73 : Ref sig .tc := ⟨.hbm, 101, rfl⟩
abbrev main_c_17 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  bcast_S50000_S1x50000_1 : S50000.BroadcastsInDim S1x50000 (![1] : Fin 1 → Fin S1x50000.rank)
  concatenates_S1x50000_S1x50000_S2x50000_d0 : Shape.Concatenates [S1x50000, S1x50000] S2x50000 0
  concatenates_S2x800000_S2x50000_S2x850000_d1 : Shape.Concatenates [S2x800000, S2x50000] S2x850000 1
  bcast_S_S50000 : S_.BroadcastsInDim S50000 (![] : Fin 0 → Fin S50000.rank)
  concatenates_S800000_S50000_S850000_d0 : Shape.Concatenates [S800000, S50000] S850000 0
  slices_S2x850000_S1x850000_0_0 : S2x850000.Slices ![0, 0] S1x850000
  shapeCasts_S1x850000_S850000 : S1x850000.ShapeCasts S850000
  slices_S2x850000_S1x850000_1_0 : S2x850000.Slices ![1, 0] S1x850000
  bcast_S_S850000 : S_.BroadcastsInDim S850000 (![] : Fin 0 → Fin S850000.rank)
  bcast_S850000_S850000x1_0 : S850000.BroadcastsInDim S850000x1 (![0] : Fin 1 → Fin S850000x1.rank)
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  inb_S2000x128_S2000x128_0_0 : ∀ a, (![0, 0] : Fin 2 → Nat) a + S2000x128.size a ≤ S2000x128.size a
  h_S2000x128 : 0 < S2000x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x64_S128x64_0_0 : ∀ a, (![0, 0] : Fin 2 → Nat) a + S128x64.size a ≤ S128x64.size a
  h_S128x64 : 0 < S128x64.numel
  inb_S2000x64_S2000x64_0_0 : ∀ a, (![0, 0] : Fin 2 → Nat) a + S2000x64.size a ≤ S2000x64.size a
  h_S2000x64 : 0 < S2000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  shapeCasts_S64_S1x64 : S64.ShapeCasts S1x64
  shapeCasts_S2000x64_S2000x64 : S2000x64.ShapeCasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S2000x512_S512x128_S2000x128_1_0_0_1_n_n_wf : DotDims.WF S2000x512 S512x128 S2000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S2000x128_S128x64_S2000x64_1_0_0_1_n_n_wf : DotDims.WF S2000x128 S128x64 S2000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x512.size a
  hwx0_0 : ∀ i : grid0.Coords, EltTy.bits .f32 = 32 ∨ (Rect.block (s := S50000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x64.size a ≤ S50000x64.size a
  hwx2_2 : ∀ i : grid2.Coords, EltTy.bits .f32 = 32 ∨ (Rect.block (s := S50000x64) S2000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S50000x64.size a
  hwx3_0 : ∀ i : grid3.Coords, EltTy.bits .f32 = 32 ∨ (Rect.block (s := S50000x64) S2000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x64.size a ≤ S50000x64.size a
  hwx3_2 : ∀ i : grid3.Coords, EltTy.bits .f32 = 32 ∨ (Rect.block (s := S50000x64) S2000x64.size (cc3_transform_2 i) (hinb3_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S2000x512_S512x128_S2000x128_1_0_0_1_n_n : DotDims S2000x512 S512x128 S2000x128 where
  lhsContracting := [1]
  rhsContracting := [0]
  lhsNonContracting := [0]
  rhsNonContracting := [1]
  lhsBatch := []
  rhsBatch := []
  wf := dot_S2000x512_S512x128_S2000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v39) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v57) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v58) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v59) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v59) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v60) S2000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v78) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v79) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v80) S2000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x512 : Shape := ⟨2, ![50000, 512]⟩
abbrev S2x800000 : Shape := ⟨2, ![2, 800000]⟩
abbrev S800000 : Shape := ⟨1, ![800000]⟩
abbrev S512x128 : Shape := ⟨2, ![512, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x50000 : Shape := ⟨2, ![1, 50000]⟩
abbrev S2x50000 : Shape := ⟨2, ![2, 50000]⟩
abbrev S2x850000 : Shape := ⟨2, ![2, 850000]⟩
abbrev S_ : Shape := ⟨0, ![]⟩
abbrev S850000 : Shape := ⟨1, ![850000]⟩
abbrev S1x850000 : Shape := ⟨2, ![1, 850000]⟩
abbrev S850000x1 : Shape := ⟨2, ![850000, 1]⟩
abbrev S50000x128 : Shape := ⟨2, ![50000, 128]⟩
abbrev S850000x128 : Shape := ⟨2, ![850000, 128]⟩
abbrev S1x128 : Shape := ⟨2, ![1, 128]⟩
abbrev S50000x64 : Shape := ⟨2, ![50000, 64]⟩
abbrev S850000x64 : Shape := ⟨2, ![850000, 64]⟩
abbrev S1x64 : Shape := ⟨2, ![1, 64]⟩

abbrev nBuf : Space → Nat
  | .hbm => 115
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S2x800000, .i32⟩
  | .hbm, ⟨2, _⟩ => ⟨S800000, .f32⟩
  | .hbm, ⟨3, _⟩ => ⟨S512x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S50000, .i32⟩
  | .hbm, ⟨8, _⟩ => ⟨S1x50000, .i32⟩
  | .hbm, ⟨9, _⟩ => ⟨S1x50000, .i32⟩
  | .hbm, ⟨10, _⟩ => ⟨S2x50000, .i32⟩
  | .hbm, ⟨11, _⟩ => ⟨S2x850000, .i32⟩
  | .hbm, ⟨12, _⟩ => ⟨S_, .f32⟩
  | .hbm, ⟨13, _⟩ => ⟨S50000, .f32⟩
  | .hbm, ⟨14, _⟩ => ⟨S850000, .f32⟩
  | .hbm, ⟨15, _⟩ => ⟨S1x850000, .i32⟩
  | .hbm, ⟨16, _⟩ => ⟨S850000, .i32⟩
  | .hbm, ⟨17, _⟩ => ⟨S1x850000, .i32⟩
  | .hbm, ⟨18, _⟩ => ⟨S850000, .i32⟩
  | .hbm, ⟨19, _⟩ => ⟨S_, .f32⟩
  | .hbm, ⟨20, _⟩ => ⟨S50000, .f32⟩
  | .hbm, ⟨21, _⟩ => ⟨S_, .i32⟩
  | .hbm, ⟨22, _⟩ => ⟨S850000, .i32⟩
  | .hbm, ⟨23, _⟩ => ⟨S850000, .i1⟩
  | .hbm, ⟨24, _⟩ => ⟨S_, .i32⟩
  | .hbm, ⟨25, _⟩ => ⟨S850000, .i32⟩
  | .hbm, ⟨26, _⟩ => ⟨S850000, .i32⟩
  | .hbm, ⟨27, _⟩ => ⟨S850000, .i32⟩
  | .hbm, ⟨28, _⟩ => ⟨S850000x1, .i32⟩
  | .hbm, ⟨29, _⟩ => ⟨S50000, .f32⟩
  | .hbm, ⟨30, _⟩ => ⟨S_, .f32⟩
  | .hbm, ⟨31, _⟩ => ⟨S50000, .f32⟩
  | .hbm, ⟨32, _⟩ => ⟨S50000, .i1⟩
  | .hbm, ⟨33, _⟩ => ⟨S50000, .f32⟩
  | .hbm, ⟨34, _⟩ => ⟨S_, .f32⟩
  | .hbm, ⟨35, _⟩ => ⟨S_, .f32⟩
  | .hbm, ⟨36, _⟩ => ⟨S50000, .f32⟩
  | .hbm, ⟨37, _⟩ => ⟨S50000, .f32⟩
  | .hbm, ⟨38, _⟩ => ⟨S_, .i32⟩
  | .hbm, ⟨39, _⟩ => ⟨S850000, .i32⟩
  | .hbm, ⟨40, _⟩ => ⟨S850000, .i1⟩
  | .hbm, ⟨41, _⟩ => ⟨S_, .i32⟩
  | .hbm, ⟨42, _⟩ => ⟨S850000, .i32⟩
  | .hbm, ⟨43, _⟩ => ⟨S850000, .i32⟩
  | .hbm, ⟨44, _⟩ => ⟨S850000, .i32⟩
  | .hbm, ⟨45, _⟩ => ⟨S850000x1, .i32⟩
  | .hbm, ⟨46, _⟩ => ⟨S850000, .f32⟩
  | .hbm, ⟨47, _⟩ => ⟨S850000, .f32⟩
  | .hbm, ⟨48, _⟩ => ⟨S_, .i32⟩
  | .hbm, ⟨49, _⟩ => ⟨S850000, .i32⟩
  | .hbm, ⟨50, _⟩ => ⟨S850000, .i1⟩
  | .hbm, ⟨51, _⟩ => ⟨S_, .i32⟩
  | .hbm, ⟨52, _⟩ => ⟨S850000, .i32⟩
  | .hbm, ⟨53, _⟩ => ⟨S850000, .i32⟩
  | .hbm, ⟨54, _⟩ => ⟨S850000, .i32⟩
  | .hbm, ⟨55, _⟩ => ⟨S850000x1, .i32⟩
  | .hbm, ⟨56, _⟩ => ⟨S850000, .f32⟩
  | .hbm, ⟨57, _⟩ => ⟨S850000, .f32⟩
  | .hbm, ⟨58, _⟩ => ⟨S50000x128, .f32⟩
  | .hbm, ⟨59, _⟩ => ⟨S850000x1, .f32⟩
  | .hbm, ⟨60, _⟩ => ⟨S_, .i32⟩
  | .hbm, ⟨61, _⟩ => ⟨S850000, .i32⟩
  | .hbm, ⟨62, _⟩ => ⟨S850000, .i1⟩
  | .hbm, ⟨63, _⟩ => ⟨S_, .i32⟩
  | .hbm, ⟨64, _⟩ => ⟨S850000, .i32⟩
  | .hbm, ⟨65, _⟩ => ⟨S850000, .i32⟩
  | .hbm, ⟨66, _⟩ => ⟨S850000, .i32⟩
  | .hbm, ⟨67, _⟩ => ⟨S850000x1, .i32⟩
  | .hbm, ⟨68, _⟩ => ⟨S850000x128, .f32⟩
  | .hbm, ⟨69, _⟩ => ⟨S850000x128, .f32⟩
  | .hbm, ⟨70, _⟩ => ⟨S850000x128, .f32⟩
  | .hbm, ⟨71, _⟩ => ⟨S_, .f32⟩
  | .hbm, ⟨72, _⟩ => ⟨S50000x128, .f32⟩
  | .hbm, ⟨73, _⟩ => ⟨S_, .i32⟩
  | .hbm, ⟨74, _⟩ => ⟨S850000, .i32⟩
  | .hbm, ⟨75, _⟩ => ⟨S850000, .i1⟩
  | .hbm, ⟨76, _⟩ => ⟨S_, .i32⟩
  | .hbm, ⟨77, _⟩ => ⟨S850000, .i32⟩
  | .hbm, ⟨78, _⟩ => ⟨S850000, .i32⟩
  | .hbm, ⟨79, _⟩ => ⟨S850000, .i32⟩
  | .hbm, ⟨80, _⟩ => ⟨S850000x1, .i32⟩
  | .hbm, ⟨81, _⟩ => ⟨S50000x128, .f32⟩
  | .hbm, ⟨82, _⟩ => ⟨S1x128, .f32⟩
  | .hbm, ⟨83, _⟩ => ⟨S50000x128, .f32⟩
  | .hbm, ⟨84, _⟩ => ⟨S50000x128, .f32⟩
  | .hbm, ⟨85, _⟩ => ⟨S_, .f32⟩
  | .hbm, ⟨86, _⟩ => ⟨S50000x128, .f32⟩
  | .hbm, ⟨87, _⟩ => ⟨S50000x128, .f32⟩
  | .hbm, ⟨88, _⟩ => ⟨S50000x64, .f32⟩
  | .hbm, ⟨89, _⟩ => ⟨S850000x1, .f32⟩
  | .hbm, ⟨90, _⟩ => ⟨S_, .i32⟩
  | .hbm, ⟨91, _⟩ => ⟨S850000, .i32⟩
  | .hbm, ⟨92, _⟩ => ⟨S850000, .i1⟩
  | .hbm, ⟨93, _⟩ => ⟨S_, .i32⟩
  | .hbm, ⟨94, _⟩ => ⟨S850000, .i32⟩
  | .hbm, ⟨95, _⟩ => ⟨S850000, .i32⟩
  | .hbm, ⟨96, _⟩ => ⟨S850000, .i32⟩
  | .hbm, ⟨97, _⟩ => ⟨S850000x1, .i32⟩
  | .hbm, ⟨98, _⟩ => ⟨S850000x64, .f32⟩
  | .hbm, ⟨99, _⟩ => ⟨S850000x64, .f32⟩
  | .hbm, ⟨100, _⟩ => ⟨S850000x64, .f32⟩
  | .hbm, ⟨101, _⟩ => ⟨S_, .f32⟩
  | .hbm, ⟨102, _⟩ => ⟨S50000x64, .f32⟩
  | .hbm, ⟨103, _⟩ => ⟨S_, .i32⟩
  | .hbm, ⟨104, _⟩ => ⟨S850000, .i32⟩
  | .hbm, ⟨105, _⟩ => ⟨S850000, .i1⟩
  | .hbm, ⟨106, _⟩ => ⟨S_, .i32⟩
  | .hbm, ⟨107, _⟩ => ⟨S850000, .i32⟩
  | .hbm, ⟨108, _⟩ => ⟨S850000, .i32⟩
  | .hbm, ⟨109, _⟩ => ⟨S850000, .i32⟩
  | .hbm, ⟨110, _⟩ => ⟨S850000x1, .i32⟩
  | .hbm, ⟨111, _⟩ => ⟨S50000x64, .f32⟩
  | .hbm, ⟨112, _⟩ => ⟨S1x64, .f32⟩
  | .hbm, ⟨113, _⟩ => ⟨S50000x64, .f32⟩
  | .hbm, ⟨114, _⟩ => ⟨S50000x64, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_c_1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_3 : Ref sig .tc := ⟨.hbm, 34, rfl⟩
abbrev main_call0_v0 : Ref sig .tc := ⟨.hbm, 35, rfl⟩
abbrev main_call0_v1 : Ref sig .tc := ⟨.hbm, 36, rfl⟩
abbrev main_v22 : Ref sig .tc := ⟨.hbm, 37, rfl⟩
abbrev main_c_4 : Ref sig .tc := ⟨.hbm, 38, rfl⟩
abbrev main_v23 : Ref sig .tc := ⟨.hbm, 39, rfl⟩
abbrev main_v24 : Ref sig .tc := ⟨.hbm, 40, rfl⟩
abbrev main_c_5 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_c_8 : Ref sig .tc := ⟨.hbm, 60, rfl⟩
abbrev main_v41 : Ref sig .tc := ⟨.hbm, 61, rfl⟩
abbrev main_v42 : Ref sig .tc := ⟨.hbm, 62, rfl⟩
abbrev main_c_9 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_10 : Ref sig .tc := ⟨.hbm, 71, rfl⟩
abbrev main_v50 : Ref sig .tc := ⟨.hbm, 72, rfl⟩
abbrev main_c_11 : Ref sig .tc := ⟨.hbm, 73, rfl⟩
abbrev main_v51 : Ref sig .tc := ⟨.hbm, 74, rfl⟩
abbrev main_v52 : Ref sig .tc := ⟨.hbm, 75, rfl⟩
abbrev main_c_12 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_call1_cst : Ref sig .tc := ⟨.hbm, 85, rfl⟩
abbrev main_call1_v0 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_c_13 : Ref sig .tc := ⟨.hbm, 90, rfl⟩
abbrev main_v64 : Ref sig .tc := ⟨.hbm, 91, rfl⟩
abbrev main_v65 : Ref sig .tc := ⟨.hbm, 92, rfl⟩
abbrev main_c_14 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_cst_15 : Ref sig .tc := ⟨.hbm, 101, rfl⟩
abbrev main_v73 : Ref sig .tc := ⟨.hbm, 102, rfl⟩
abbrev main_c_16 : Ref sig .tc := ⟨.hbm, 103, rfl⟩
abbrev main_v74 : Ref sig .tc := ⟨.hbm, 104, rfl⟩
abbrev main_v75 : Ref sig .tc := ⟨.hbm, 105, rfl⟩
abbrev main_c_17 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩

abbrev nD : Nat := 1
abbrev τ : Topo := Topo.v7x

variable {F : FTy → Type} [FloatOps F]

class Facts₀ : Prop where
  bcast_S50000_S1x50000_1 : S50000.BroadcastsInDim S1x50000 (![1] : Fin 1 → Fin S1x50000.rank)
  concatenates_S1x50000_S1x50000_S2x50000_d0 : Shape.Concatenates [S1x50000, S1x50000] S2x50000 0
  concatenates_S2x800000_S2x50000_S2x850000_d1 : Shape.Concatenates [S2x800000, S2x50000] S2x850000 1
  bcast_S_S50000 : S_.BroadcastsInDim S50000 (![] : Fin 0 → Fin S50000.rank)
  concatenates_S800000_S50000_S850000_d0 : Shape.Concatenates [S800000, S50000] S850000 0
  slices_S2x850000_S1x850000_0_0 : S2x850000.Slices ![0, 0] S1x850000
  shapeCasts_S1x850000_S850000 : S1x850000.ShapeCasts S850000
  slices_S2x850000_S1x850000_1_0 : S2x850000.Slices ![1, 0] S1x850000
  bcast_S_S850000 : S_.BroadcastsInDim S850000 (![] : Fin 0 → Fin S850000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x512_S512x128_S50000x128_1_0_0_1_n_n_wf : DotDims.WF S50000x512 S512x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x512_S512x128_S50000x128_1_0_0_1_n_n : DotDims S50000x512 S512x128 S50000x128 where
  lhsContracting := [1]
  rhsContracting := [0]
  lhsNonContracting := [0]
  rhsNonContracting := [1]
  lhsBatch := []
  rhsBatch := []
  wf := dot_S50000x512_S512x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

class Facts : Prop extends Facts₀ where

variable [Facts]
-- ==== Proof.RunValue.lean ====
/-
  The idealized kernel's run with its result buffer named.

  @main of the kernel is nine segments: three stretches of host operations, the first matrix product's region, a
  stretch of host operations, the bias-and-rectifier region, the second matrix product's region, a stretch of host
  operations, the second bias region.  The contents of the TensorCore's buffers at each boundary are the fold
  `Gen.W0 … Gen.W9` through those segments.  The frame of the program says that every weakly fair execution ends with
  the argument arrays as launched; the same launch over the same segments, read at one more buffer, says that the
  result buffer ends at what the fold leaves there, `Gen.W9 m ρ c main_v80`.
-/
import proofs.«160410_j9371618640020_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel's @main terminates, nothing faulting, with the result buffer at the
    last boundary's contents and the seven argument arrays as launched. -/
theorem run_result : θ_run defs (onTc (τ := τ) (main (F := F))) ⟨m, fun _ => 0, ρ⟩ (fun r => ∀ c : Dev nD,
      r.2.mem ((c.tc : Thread nD τ).loc main_v80) = W9 m ρ c (Proc.devRef .tc main_v80)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v80 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c)⟩)

end Cert.KernelIdeal.RunValue

end
-- ==== Proof.LibPlainDot.lean ====
/-
  A plain matrix product read at an entry.

  For the dimension numbers of an `M×K` by `K×N` product (contract the left operand's axis 1 with the right
  operand's axis 0, no batch axes), a `tpu.matmul` into the zero accumulator, read on the extended reals at the
  entry `(p, q)`, is `∑ k, lhs (p, k) · rhs (k, q)`; so is the host's `dot_general`. Any record with these six lists
  is `DotDims.plain M K N` (the well-formedness field is a proposition), so a printed record is rewritten to it by `rfl`.
-/
import Idealize.ShloMosaic.PureOps.Ideal.Laws
import Idealize.ShloMosaic.Lib.ValueIdx

noncomputable section

namespace Cert.PlainDot

open Idealize.ShloMosaic Idealize.ShloMosaic.ValueIdx
open scoped BigOperators

variable {M K N : Nat}

/-- The left operand's index at result entry `j` and contraction position `k` is `(j 0, k)`. -/
theorem lhsIdx_eq (j : (⟨2, ![M, N]⟩ : Shape).Idx) (k : Fin K) :
    (DotDims.plain M K N).lhsIdx j ((contrEquiv1 (DotDims.plain M K N) K rfl rfl).symm k) = ix2 (j 0) k := by
  have hk := contrEquiv1_symm_val (DotDims.plain M K N) K rfl rfl k
  funext a
  apply Fin.ext
  match a with
  | ⟨0, _⟩ =>
    show ((DotDims.plain M K N).lhsIdx j _ 0).val = (j 0).val
    unfold DotDims.lhsIdx
    rw [dif_neg (show ¬(0 : Fin 2) ∈ (DotDims.plain M K N).lhsBatch from List.not_mem_nil),
      dif_pos (show (0 : Fin 2) ∈ (DotDims.plain M K N).lhsNonContracting from List.mem_singleton.mpr rfl)]
    rfl
  | ⟨1, _⟩ => exact ((DotDims.plain M K N).lhsIdx_val_of_single rfl j _).trans hk

/-- The right operand's index at result entry `j` and contraction position `k` is `(k, j 1)`. -/
theorem rhsIdx_eq (j : (⟨2, ![M, N]⟩ : Shape).Idx) (k : Fin K) :
    (DotDims.plain M K N).rhsIdx j ((contrEquiv1 (DotDims.plain M K N) K rfl rfl).symm k) = ix2 k (j 1) := by
  have hk := contrEquiv1_symm_val (DotDims.plain M K N) K rfl rfl k
  funext a
  apply Fin.ext
  match a with
  | ⟨0, _⟩ => exact ((DotDims.plain M K N).rhsIdx_val_of_single rfl j _).trans hk
  | ⟨1, _⟩ =>
    show ((DotDims.plain M K N).rhsIdx j _ 1).val = (j 1).val
    unfold DotDims.rhsIdx
    rw [dif_neg (show ¬(1 : Fin 2) ∈ (DotDims.plain M K N).rhsBatch from List.not_mem_nil),
      dif_pos (show (1 : Fin 2) ∈ (DotDims.plain M K N).rhsNonContracting from List.mem_singleton.mpr rfl)]
    rfl

/-- The contraction sum of a plain product at `(p, q)` is the sum over `k` of `lhs (p, k) · rhs (k, q)`. -/
theorem contraction_eq (lhs : (⟨2, ![M, K]⟩ : Shape).Idx → EReal) (rhs : (⟨2, ![K, N]⟩ : Shape).Idx → EReal) (p : Fin M) (q : Fin N) :
    (∑ k : (DotDims.plain M K N).contr.Idx, lhs ((DotDims.plain M K N).lhsIdx (ix2 p q) k) * rhs ((DotDims.plain M K N).rhsIdx (ix2 p q) k))
      = ∑ k : Fin K, lhs (ix2 p k) * rhs (ix2 k q) := by
  rw [← Equiv.sum_comp (contrEquiv1 (DotDims.plain M K N) K rfl rfl).symm]
  refine Finset.sum_congr rfl fun k _ => ?_
  rw [lhsIdx_eq, rhsIdx_eq]
  rfl

/-- A `tpu.matmul` of plain dimension numbers into the zero accumulator, at `(p, q)`. -/
theorem matmul_zero_apply (prec : Option ContractPrecision) (lhs : FVec Ideal ⟨2, ![M, K]⟩ .f32) (rhs : FVec Ideal ⟨2, ![K, N]⟩ .f32)
    (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact contraction_eq lhs rhs p q

/-- The host's `dot_general` of plain dimension numbers, at `(p, q)`. -/
theorem dotGeneral_apply (prec : Option ContractPrecision) (sched : HostSchedule) (lhs : FVec Ideal ⟨2, ![M, K]⟩ .f32)
    (rhs : FVec Ideal ⟨2, ![K, N]⟩ .f32) (p : Fin M) (q : Fin N) :
    FloatOps.dotGeneral (DotDims.plain M K N) prec sched lhs rhs (ix2 p q) = ∑ k : Fin K, lhs (ix2 p k) * rhs (ix2 k q) := by
  rw [Ideal.dotGeneral_apply]
  exact contraction_eq lhs rhs p q

end Cert.PlainDot

end
-- ==== Proof.DotAt.lean ====
/-
  A block product into the zero accumulator at an entry, the operands of any float format.

  On the extended reals a `tpu.matmul` of an `A×B` block by a `B×C` block into the zero splat is, at `(p, q)`, the sum
  over `k` of `lhs (p, k) · rhs (k, q)`.  The library form of this in LibPlainDot is stated for f32 operands; a kernel
  that casts its operands to bf16 first multiplies bf16 vectors, which on the extended reals are the same functions.
-/
import proofs.«160410_j9371618640020_1_alg».proof.Proof.LibPlainDot

noncomputable section

namespace Cert.DotAt

open Idealize.ShloMosaic Idealize.ShloMosaic.ValueIdx
open scoped BigOperators

theorem matmul_zero_at {A B C : Nat} {φ₁ φ₂ : FTy} (prec : Option ContractPrecision)
    (lhs : FVec Ideal ⟨2, ![A, B]⟩ φ₁) (rhs : FVec Ideal ⟨2, ![B, C]⟩ φ₂) (p : Fin A) (q : Fin C) :
    FloatOps.matmul (DotDims.plain A B C) prec lhs rhs (constant ⟨2, ![A, C]⟩ .f32 0x00000000#32) (ix2 p q)
      = ∑ k : Fin B, lhs (ix2 p k) * rhs (ix2 k q) := by
  rw [Ideal.matmul_constant_zero_apply]
  exact Cert.PlainDot.contraction_eq lhs rhs p q

/-- The zero offsets of a rank-2 block. -/
theorem zero_offsets : (![0, 0] : Fin 2 → Nat) = fun _ => 0 := funext fun a => by fin_cases a <;> rfl

end Cert.DotAt

end
-- ==== Proof.DenseOne.lean ====
/-
  The first layer's matrix product, read off its region.

  The region walks 25 grid points; point `t` loads rows `2000·t … 2000·t + 1999` of the left operand (all 512
  columns) and the whole right operand, and stores the 2000×128 product of the two blocks — a `tpu.matmul` into the zero
  accumulator, the two casts to bf16 being the identity on the extended reals — as rows `2000·t … 2000·t + 1999` of the
  result.  Entry `(r, q)` of that block is `∑ k, lhs (2000·t + r, k) · rhs (k, q)`, which is entry `(2000·t + r, q)` of the
  host's `dot_general` of the two whole arrays; the 25 blocks tile the result's rows, so the result array ends holding
  that `dot_general`, whatever the buffers held when the region was entered.
-/
import proofs.«160410_j9371618640020_1_alg».proof.Proof.Gen.KernelIdeal.Frame
import proofs.«160410_j9371618640020_1_alg».proof.Proof.LibPlainDot
import proofs.«160410_j9371618640020_1_alg».proof.Proof.DotAt
import Idealize.ShloMosaic.Lib.Pipeline.Value
import Idealize.ShloMosaic.Lib.ValueIdx
import Idealize.ShloMosaic.PureOps.Ideal.Laws

set_option maxRecDepth 16384

noncomputable section

namespace Cert.KernelIdeal.DenseOne

open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b))

/-- The host's product of two whole arrays, as a function on the result's indices. -/
abbrev product (X : S50000x512.Idx → Elt Ideal .f32) (W : S512x128.Idx → Elt Ideal .f32) : S50000x128.Idx → Elt Ideal .f32 :=
  Host.dotGeneral (F := Ideal) (φ₁ := .f32) (φ₂ := .f32) (DotDims.plain 50000 512 128) none X W

/-- The body's one stored value at `(p, q)`: the sum over `k` of the left block at `(p, k)` times the right block at `(k, q)`. -/
theorem payload_at (x0 : Vec Ideal S2000x512 .f32) (x1 : Vec Ideal S512x128 .f32) (p : Fin 2000) (q : Fin 128) :
    k0_pay1 x0 x1 (ix2 p q) = ∑ k : Fin 512, x0 (ix2 p k) * x1 (ix2 k q) :=
  Cert.DotAt.matmul_zero_at (A := 2000) (B := 512) (C := 128) none x0 x1 p q

/-- The host's product of the two whole arrays at `(p, q)`. -/
theorem product_at (X : S50000x512.Idx → Elt Ideal .f32) (W : S512x128.Idx → Elt Ideal .f32) (p : Fin 50000) (q : Fin 128) :
    product X W (ix2 p q) = ∑ k : Fin 512, X (ix2 p k) * W (ix2 k q) :=
  Cert.PlainDot.dotGeneral_apply (M := 50000) (K := 512) (N := 128) none _ X W p q

/-- The printed index maps over the grid: the left operand's and the result's row block is the point's number, every
    other block index is zero. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- One entry of a block against one entry of the whole product: equal once the left block's row `p` is row `P` of the left
    array and the right block is the right array. -/
theorem entry_eq (x0 : Vec Ideal S2000x512 .f32) (x1 : Vec Ideal S512x128 .f32) (X : S50000x512.Idx → Elt Ideal .f32) (W : S512x128.Idx → Elt Ideal .f32)
    (p : Fin 2000) (q : Fin 128) (P : Fin 50000)
    (h0 : ∀ k : Fin 512, x0 (ix2 p k) = X (ix2 P k)) (h1 : ∀ k : Fin 512, x1 (ix2 k q) = W (ix2 k q)) :
    k0_pay1 x0 x1 (ix2 p q) = product X W (ix2 P q) := by
  rw [payload_at, product_at]
  exact Finset.sum_congr rfl fun k _ => by rw [h0 k, h1 k]

/-- What point `t` writes back is block `t` of the host's product of the two arrays as the region finds them. -/
theorem flushed_eq (c : Dev nD) (t : Fin cfg0.N) :
    (dat0 V c).flushed 2 t = ((cfg0.win 2).blk t).view.read (Elt Ideal)
      (product (V c main_arg0) (V c main_arg3)) := by
  show (cfg0.win 2).cut (grid0.coords t) ((dat0 V c).after 2 t) = _
  rw [after0_2]
  unfold out0_2
  rw [View.canon_unit_zero Cert.DotAt.zero_offsets]
  simp only [View.ld_unit_zero (S := S2000x512) Cert.DotAt.zero_offsets, View.ld_unit_zero (S := S512x128) Cert.DotAt.zero_offsets]
  obtain ⟨e0, e1, e2, e3, e4, e5⟩ := index_facts t
  funext j
  have ht : t.val < 25 := t.isLt
  obtain ⟨p, q, rfl⟩ : ∃ (p : Fin 2000) (q : Fin 128), j = ix2 p q := ⟨⟨(j 0).val, (j 0).isLt⟩, ⟨(j 1).val, (j 1).isLt⟩, eq_ix2 j⟩
  have hp : p.val < 2000 := p.isLt
  have hq : q.val < 128 := q.isLt
  have hi : ((cfg0.win 2).blk t).view.emb (ix2 p q) = ix2 (⟨t.val * 2000 + p.val, by omega⟩ : Fin 50000) q := by
    funext a; apply Fin.ext
    match a with
    | ⟨0, _⟩ => show win0_2.index t (0 : Fin 2) * 2000 + 1 * p.val = t.val * 2000 + p.val; rw [e4]; omega
    | ⟨1, _⟩ => show win0_2.index t (1 : Fin 2) * 128 + 1 * q.val = q.val; rw [e5]; omega
  show k0_pay1 (iblk0 V c 0 t) (iblk0 V c 1 t) (ix2 p q)
    = product (V c main_arg0) (V c main_arg3) (((cfg0.win 2).blk t).view.emb (ix2 p q))
  rw [hi]
  refine entry_eq _ _ _ _ _ _ _ (fun k => ?_) (fun k => ?_)
  · refine (congrArg (V c main_arg0) ?_ : V c main_arg0 (((cfg0.win 0).blk t).view.emb (ix2 p k)) = _)
    funext a; apply Fin.ext
    match a with
    | ⟨0, _⟩ => show win0_0.index t (0 : Fin 2) * 2000 + 1 * p.val = t.val * 2000 + p.val; rw [e0]; omega
    | ⟨1, _⟩ => show win0_0.index t (1 : Fin 2) * 512 + 1 * k.val = k.val; rw [e1]; omega
  · refine (congrArg (V c main_arg3) ?_ : V c main_arg3 (((cfg0.win 1).blk t).view.emb (ix2 k q)) = _)
    funext a; apply Fin.ext
    match a with
    | ⟨0, _⟩ => show win0_1.index t (0 : Fin 2) * 512 + 1 * k.val = k.val; rw [e2]; omega
    | ⟨1, _⟩ => show win0_1.index t (1 : Fin 2) * 128 + 1 * q.val = q.val; rw [e3]; omega

/-- An index of the result array is in point `t`'s block iff each coordinate is in the block's range on its axis. -/
theorem mem_block (t : Fin cfg0.N) (i : S50000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v39).slice (win0_2.rect t)).set ↔ _
  rw [View.set_slice_whole, Rect.mem_set_unit]
  exact Iff.rfl

/-- Every index of the result array is in the block of the point its row falls in. -/
theorem covered (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 25 := N_0
  have hlt : (i 0).val / 2000 < cfg0.N := by rw [hN]; omega
  obtain ⟨e0, e1, e2, e3, e4, e5⟩ := index_facts ⟨(i 0).val / 2000, hlt⟩
  refine ⟨⟨(i 0).val / 2000, hlt⟩, flush0_2 _, ?_⟩
  rw [mem_block]
  intro a
  match a with
  | ⟨0, _⟩ =>
    show win0_2.index ⟨(i 0).val / 2000, hlt⟩ (0 : Fin 2) * 2000 ≤ (i 0).val ∧ (i 0).val < win0_2.index ⟨(i 0).val / 2000, hlt⟩ (0 : Fin 2) * 2000 + 2000
    rw [e4]; show (i 0).val / 2000 * 2000 ≤ (i 0).val ∧ (i 0).val < (i 0).val / 2000 * 2000 + 2000; omega
  | ⟨1, _⟩ =>
    show win0_2.index ⟨(i 0).val / 2000, hlt⟩ (1 : Fin 2) * 128 ≤ (i 1).val ∧ (i 1).val < win0_2.index ⟨(i 0).val / 2000, hlt⟩ (1 : Fin 2) * 128 + 128
    rw [e5]; omega

/-- The result array after the region: the host's product of the two operand arrays as the region finds them. -/
theorem result (c : Dev nD) :
    (dat0 V c).arrAt 2 cfg0.N = product (V c main_arg0) (V c main_arg3) :=
  (dat0 V c).arrAt_eq_of_cover 2 _ (fun t _ => flushed_eq V c t) covered

end Cert.KernelIdeal.DenseOne

end
-- ==== Proof.BiasOne.lean ====
/-
  The first layer's bias region, read off its region.

  The region walks 25 grid points; point `t` loads rows `2000·t … 2000·t + 1999` of the aggregated features and the one
  row of the bias, adds the bias row to every row of the block, takes the maximum with zero, and stores the block as rows
  `2000·t … 2000·t + 1999` of the result.  Entry `(r, q)` of the stored block depends on entry `(2000·t + r, q)` of the features and on
  entry `(0, q)` of the bias only; the 25 blocks tile the result's rows, so the result array ends holding `max (A + b, 0)`
  of the two arrays as the region finds them, entry by entry.
-/
import proofs.«160410_j9371618640020_1_alg».proof.Proof.Gen.KernelIdeal.Frame
import proofs.«160410_j9371618640020_1_alg».proof.Proof.DotAt
import Idealize.ShloMosaic.Lib.Pipeline.Value
import Idealize.ShloMosaic.Lib.ValueIdx
import Idealize.ShloMosaic.Lib.ValueLayout

set_option maxRecDepth 16384

noncomputable section

namespace Cert.KernelIdeal.BiasOne

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The row `b` added to every row of `A`, then the maximum with the float zero, entry by entry. -/
def rowBiasRelu (A : S50000x128.Idx → Elt Ideal .f32) (b : S1x128.Idx → Elt Ideal .f32) : S50000x128.Idx → Elt Ideal .f32 :=
  fun i => max (A i + b (ix2 (0 : Fin 1) (⟨(i 1).val, (i 1).isLt⟩ : Fin 128))) (Ideal.ofBits .f32 0x00000000#32)

/-- The body's one stored value at `(p, q)`. -/
theorem payload_at (x0 : Vec Ideal S2000x128 .f32) (x1 : Vec Ideal S1x128 .f32) (p : Fin 2000) (q : Fin 128) :
    k1_pay1 x0 x1 (ix2 p q) = max (x0 (ix2 p q) + x1 (ix2 (0 : Fin 1) q)) (Ideal.ofBits .f32 0x00000000#32) := by
  unfold k1_pay1
  show max (shapeCast S2000x128 x0 shapeCasts_S2000x128_S2000x128 (ix2 p q)
      + broadcastTo S2000x128 (shapeCast S1x128 x1 shapeCasts_S1x128_S1x128) broadcasts_S1x128_S2000x128 (ix2 p q)) (Ideal.ofBits .f32 0x00000000#32) = _
  rw [shapeCast_self, shapeCast_self, broadcastTo_1b_ab_apply]

/-- The printed index maps over the grid: the features' and the result's row block is the point's number, every other
    block index is zero. -/
theorem index_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- One entry of a stored block against one entry of the whole-array function: equal once the block's entry `(p, q)` is
    entry `(P, q)` of the features and the bias block is the bias array. -/
theorem entry_eq (x0 : Vec Ideal S2000x128 .f32) (x1 : Vec Ideal S1x128 .f32) (A : FVec Ideal S50000x128 .f32) (b : FVec Ideal S1x128 .f32)
    (p : Fin 2000) (q : Fin 128) (P : Fin 50000)
    (h0 : x0 (ix2 p q) = A (ix2 P q)) (h1 : x1 (ix2 (0 : Fin 1) q) = b (ix2 (0 : Fin 1) q)) :
    k1_pay1 x0 x1 (ix2 p q) = rowBiasRelu A b (ix2 P q) := by
  rw [payload_at, h0, h1]
  rfl

/-- What point `t` writes back is block `t` of the whole-array function of the two arrays as the region finds them. -/
theorem flushed_eq (c : Dev nD) (t : Fin cfg1.N) :
    (dat1 V c).flushed 2 t = ((cfg1.win 2).blk t).view.read (Elt Ideal) (rowBiasRelu (V c main_v57) (V c main_v58)) := by
  show (cfg1.win 2).cut (grid1.coords t) ((dat1 V c).after 2 t) = _
  rw [after1_2]
  unfold out1_2
  rw [View.canon_unit_zero Cert.DotAt.zero_offsets]
  simp only [View.ld_unit_zero (S := S2000x128) Cert.DotAt.zero_offsets, View.ld_unit_zero (S := S1x128) Cert.DotAt.zero_offsets]
  obtain ⟨e0, e1, e2, e3, e4, e5⟩ := index_facts t
  funext j
  have ht : t.val < 25 := t.isLt
  obtain ⟨p, q, rfl⟩ : ∃ (p : Fin 2000) (q : Fin 128), j = ix2 p q := ⟨⟨(j 0).val, (j 0).isLt⟩, ⟨(j 1).val, (j 1).isLt⟩, eq_ix2 j⟩
  have hp : p.val < 2000 := p.isLt
  have hq : q.val < 128 := q.isLt
  have hi : ((cfg1.win 2).blk t).view.emb (ix2 p q) = ix2 (⟨t.val * 2000 + p.val, by omega⟩ : Fin 50000) q := by
    funext a; apply Fin.ext
    match a with
    | ⟨0, _⟩ => show win1_2.index t (0 : Fin 2) * 2000 + 1 * p.val = t.val * 2000 + p.val; rw [e4]; omega
    | ⟨1, _⟩ => show win1_2.index t (1 : Fin 2) * 128 + 1 * q.val = q.val; rw [e5]; omega
  show k1_pay1 (iblk1 V c 0 t) (iblk1 V c 1 t) (ix2 p q) = rowBiasRelu (V c main_v57) (V c main_v58) (((cfg1.win 2).blk t).view.emb (ix2 p q))
  rw [hi]
  refine entry_eq _ _ _ _ _ _ _ ?_ ?_
  · refine (congrArg (V c main_v57) ?_ : V c main_v57 (((cfg1.win 0).blk t).view.emb (ix2 p q)) = _)
    funext a; apply Fin.ext
    match a with
    | ⟨0, _⟩ => show win1_0.index t (0 : Fin 2) * 2000 + 1 * p.val = t.val * 2000 + p.val; rw [e0]; omega
    | ⟨1, _⟩ => show win1_0.index t (1 : Fin 2) * 128 + 1 * q.val = q.val; rw [e1]; omega
  · refine (congrArg (V c main_v58) ?_ : V c main_v58 (((cfg1.win 1).blk t).view.emb (ix2 (0 : Fin 1) q)) = _)
    funext a; apply Fin.ext
    match a with
    | ⟨0, _⟩ => show win1_1.index t (0 : Fin 2) * 1 + 1 * 0 = 0; rw [e2]
    | ⟨1, _⟩ => show win1_1.index t (1 : Fin 2) * 128 + 1 * q.val = q.val; rw [e3]; omega

/-- An index of the result array is in point `t`'s block iff each coordinate is in the block's range on its axis. -/
theorem mem_block (t : Fin cfg1.N) (i : S50000x128.Idx) :
    i ∈ ((cfg1.win 2).blk t).view.set ↔ ∀ a : Fin 2, win1_2.index t a * S2000x128.size a ≤ (i a).val ∧ (i a).val < win1_2.index t a * S2000x128.size a + S2000x128.size a := by
  show i ∈ ((View.whole main_v59).slice (win1_2.rect t)).set ↔ _
  rw [View.set_slice_whole, Rect.mem_set_unit]
  exact Iff.rfl

/-- Every index of the result array is in the block of the point its row falls in. -/
theorem covered (i : S50000x128.Idx) : ∃ t : Fin cfg1.N, (cfg1.win 2).flush t = true ∧ i ∈ ((cfg1.win 2).blk t).view.set := by
  have hi0 : (i 0).val < 50000 := (i 0).isLt
  have hi1 : (i 1).val < 128 := (i 1).isLt
  have hN : cfg1.N = 25 := N_1
  have hlt : (i 0).val / 2000 < cfg1.N := by rw [hN]; omega
  obtain ⟨e0, e1, e2, e3, e4, e5⟩ := index_facts ⟨(i 0).val / 2000, hlt⟩
  refine ⟨⟨(i 0).val / 2000, hlt⟩, flush1_2 _, ?_⟩
  rw [mem_block]
  intro a
  match a with
  | ⟨0, _⟩ =>
    show win1_2.index ⟨(i 0).val / 2000, hlt⟩ (0 : Fin 2) * 2000 ≤ (i 0).val ∧ (i 0).val < win1_2.index ⟨(i 0).val / 2000, hlt⟩ (0 : Fin 2) * 2000 + 2000
    rw [e4]; show (i 0).val / 2000 * 2000 ≤ (i 0).val ∧ (i 0).val < (i 0).val / 2000 * 2000 + 2000; omega
  | ⟨1, _⟩ =>
    show win1_2.index ⟨(i 0).val / 2000, hlt⟩ (1 : Fin 2) * 128 ≤ (i 1).val ∧ (i 1).val < win1_2.index ⟨(i 0).val / 2000, hlt⟩ (1 : Fin 2) * 128 + 128
    rw [e5]; omega

/-- The result array after the region: the whole-array function of the two arrays as the region finds them. -/
theorem result (c : Dev nD) :
    (dat1 V c).arrAt 2 cfg1.N = rowBiasRelu (V c main_v57) (V c main_v58) :=
  (dat1 V c).arrAt_eq_of_cover 2 _ (fun t _ => flushed_eq V c t) covered

end Cert.KernelIdeal.BiasOne

end
-- ==== Proof.DenseTwo.lean ====
/-
  The second layer's matrix product, read off its region.

  The region walks 25 grid points; point `t` loads rows `2000·t … 2000·t + 1999` of the left operand (all 128
  columns) and the whole right operand, and stores the 2000×64 product of the two blocks — a `tpu.matmul` into the zero
  accumulator, the two casts to bf16 being the identity on the extended reals — as rows `2000·t … 2000·t + 1999` of the
  result.  Entry `(r, q)` of that block is `∑ k, lhs (2000·t + r, k) · rhs (k, q)`, which is entry `(2000·t + r, q)` of the
  host's `dot_general` of the two whole arrays; the 25 blocks tile the result's rows, so the result array ends holding
  that `dot_general`, whatever the buffers held when the region was entered.
-/
import proofs.«160410_j9371618640020_1_alg».proof.Proof.Gen.KernelIdeal.Frame
import proofs.«160410_j9371618640020_1_alg».proof.Proof.LibPlainDot
import proofs.«160410_j9371618640020_1_alg».proof.Proof.DotAt
import Idealize.ShloMosaic.Lib.Pipeline.Value
import Idealize.ShloMosaic.Lib.ValueIdx
import Idealize.ShloMosaic.PureOps.Ideal.Laws

set_option maxRecDepth 16384

noncomputable section

namespace Cert.KernelIdeal.DenseTwo

open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b))

/-- The host's product of two whole arrays, as a function on the result's indices. -/
abbrev product (X : S50000x128.Idx → Elt Ideal .f32) (W : S128x64.Idx → Elt Ideal .f32) : S50000x64.Idx → Elt Ideal .f32 :=
  Host.dotGeneral (F := Ideal) (φ₁ := .f32) (φ₂ := .f32) (DotDims.plain 50000 128 64) none X W

/-- The body's one stored value at `(p, q)`: the sum over `k` of the left block at `(p, k)` times the right block at `(k, q)`. -/
theorem payload_at (x0 : Vec Ideal S2000x128 .f32) (x1 : Vec Ideal S128x64 .f32) (p : Fin 2000) (q : Fin 64) :
    k2_pay1 x0 x1 (ix2 p q) = ∑ k : Fin 128, x0 (ix2 p k) * x1 (ix2 k q) := by
  unfold k2_pay1
  show FloatOps.matmul (F := Ideal) (φ₁ := .bf16) (φ₂ := .bf16) (DotDims.plain 2000 128 64) none (shapeCast S2000x128 x0 shapeCasts_S2000x128_S2000x128) x1
    (constant S2000x64 .f32 0x00000000#32) (ix2 p q) = _
  rw [shapeCast_self]
  exact Cert.DotAt.matmul_zero_at (A := 2000) (B := 128) (C := 64) none x0 x1 p q

/-- The host's product of the two whole arrays at `(p, q)`. -/
theorem product_at (X : S50000x128.Idx → Elt Ideal .f32) (W : S128x64.Idx → Elt Ideal .f32) (p : Fin 50000) (q : Fin 64) :
    product X W (ix2 p q) = ∑ k : Fin 128, X (ix2 p k) * W (ix2 k q) :=
  Cert.PlainDot.dotGeneral_apply (M := 50000) (K := 128) (N := 64) none _ X W p q

/-- The printed index maps over the grid: the left operand's and the result's row block is the point's number, every
    other block index is zero. -/
theorem index_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- One entry of a block against one entry of the whole product: equal once the left block's row `p` is row `P` of the left
    array and the right block is the right array. -/
theorem entry_eq (x0 : Vec Ideal S2000x128 .f32) (x1 : Vec Ideal S128x64 .f32) (X : S50000x128.Idx → Elt Ideal .f32) (W : S128x64.Idx → Elt Ideal .f32)
    (p : Fin 2000) (q : Fin 64) (P : Fin 50000)
    (h0 : ∀ k : Fin 128, x0 (ix2 p k) = X (ix2 P k)) (h1 : ∀ k : Fin 128, x1 (ix2 k q) = W (ix2 k q)) :
    k2_pay1 x0 x1 (ix2 p q) = product X W (ix2 P q) := by
  rw [payload_at, product_at]
  exact Finset.sum_congr rfl fun k _ => by rw [h0 k, h1 k]

/-- What point `t` writes back is block `t` of the host's product of the two arrays as the region finds them. -/
theorem flushed_eq (c : Dev nD) (t : Fin cfg2.N) :
    (dat2 V c).flushed 2 t = ((cfg2.win 2).blk t).view.read (Elt Ideal)
      (product (V c main_v59) (V c main_arg5)) := by
  show (cfg2.win 2).cut (grid2.coords t) ((dat2 V c).after 2 t) = _
  rw [after2_2]
  unfold out2_2
  rw [View.canon_unit_zero Cert.DotAt.zero_offsets]
  simp only [View.ld_unit_zero (S := S2000x128) Cert.DotAt.zero_offsets, View.ld_unit_zero (S := S128x64) Cert.DotAt.zero_offsets]
  obtain ⟨e0, e1, e2, e3, e4, e5⟩ := index_facts t
  funext j
  have ht : t.val < 25 := t.isLt
  obtain ⟨p, q, rfl⟩ : ∃ (p : Fin 2000) (q : Fin 64), j = ix2 p q := ⟨⟨(j 0).val, (j 0).isLt⟩, ⟨(j 1).val, (j 1).isLt⟩, eq_ix2 j⟩
  have hp : p.val < 2000 := p.isLt
  have hq : q.val < 64 := q.isLt
  have hi : ((cfg2.win 2).blk t).view.emb (ix2 p q) = ix2 (⟨t.val * 2000 + p.val, by omega⟩ : Fin 50000) q := by
    funext a; apply Fin.ext
    match a with
    | ⟨0, _⟩ => show win2_2.index t (0 : Fin 2) * 2000 + 1 * p.val = t.val * 2000 + p.val; rw [e4]; omega
    | ⟨1, _⟩ => show win2_2.index t (1 : Fin 2) * 64 + 1 * q.val = q.val; rw [e5]; omega
  show k2_pay1 (iblk2 V c 0 t) (iblk2 V c 1 t) (ix2 p q)
    = product (V c main_v59) (V c main_arg5) (((cfg2.win 2).blk t).view.emb (ix2 p q))
  rw [hi]
  refine entry_eq _ _ _ _ _ _ _ (fun k => ?_) (fun k => ?_)
  · refine (congrArg (V c main_v59) ?_ : V c main_v59 (((cfg2.win 0).blk t).view.emb (ix2 p k)) = _)
    funext a; apply Fin.ext
    match a with
    | ⟨0, _⟩ => show win2_0.index t (0 : Fin 2) * 2000 + 1 * p.val = t.val * 2000 + p.val; rw [e0]; omega
    | ⟨1, _⟩ => show win2_0.index t (1 : Fin 2) * 128 + 1 * k.val = k.val; rw [e1]; omega
  · refine (congrArg (V c main_arg5) ?_ : V c main_arg5 (((cfg2.win 1).blk t).view.emb (ix2 k q)) = _)
    funext a; apply Fin.ext
    match a with
    | ⟨0, _⟩ => show win2_1.index t (0 : Fin 2) * 128 + 1 * k.val = k.val; rw [e2]; omega
    | ⟨1, _⟩ => show win2_1.index t (1 : Fin 2) * 64 + 1 * q.val = q.val; rw [e3]; omega

/-- An index of the result array is in point `t`'s block iff each coordinate is in the block's range on its axis. -/
theorem mem_block (t : Fin cfg2.N) (i : S50000x64.Idx) :
    i ∈ ((cfg2.win 2).blk t).view.set ↔ ∀ a : Fin 2, win2_2.index t a * S2000x64.size a ≤ (i a).val ∧ (i a).val < win2_2.index t a * S2000x64.size a + S2000x64.size a := by
  show i ∈ ((View.whole main_v60).slice (win2_2.rect t)).set ↔ _
  rw [View.set_slice_whole, Rect.mem_set_unit]
  exact Iff.rfl

/-- Every index of the result array is in the block of the point its row falls in. -/
theorem covered (i : S50000x64.Idx) : ∃ t : Fin cfg2.N, (cfg2.win 2).flush t = true ∧ i ∈ ((cfg2.win 2).blk t).view.set := by
  have hi0 : (i 0).val < 50000 := (i 0).isLt
  have hi1 : (i 1).val < 64 := (i 1).isLt
  have hN : cfg2.N = 25 := N_2
  have hlt : (i 0).val / 2000 < cfg2.N := by rw [hN]; omega
  obtain ⟨e0, e1, e2, e3, e4, e5⟩ := index_facts ⟨(i 0).val / 2000, hlt⟩
  refine ⟨⟨(i 0).val / 2000, hlt⟩, flush2_2 _, ?_⟩
  rw [mem_block]
  intro a
  match a with
  | ⟨0, _⟩ =>
    show win2_2.index ⟨(i 0).val / 2000, hlt⟩ (0 : Fin 2) * 2000 ≤ (i 0).val ∧ (i 0).val < win2_2.index ⟨(i 0).val / 2000, hlt⟩ (0 : Fin 2) * 2000 + 2000
    rw [e4]; show (i 0).val / 2000 * 2000 ≤ (i 0).val ∧ (i 0).val < (i 0).val / 2000 * 2000 + 2000; omega
  | ⟨1, _⟩ =>
    show win2_2.index ⟨(i 0).val / 2000, hlt⟩ (1 : Fin 2) * 64 ≤ (i 1).val ∧ (i 1).val < win2_2.index ⟨(i 0).val / 2000, hlt⟩ (1 : Fin 2) * 64 + 64
    rw [e5]; omega

/-- The result array after the region: the host's product of the two operand arrays as the region finds them. -/
theorem result (c : Dev nD) :
    (dat2 V c).arrAt 2 cfg2.N = product (V c main_v59) (V c main_arg5) :=
  (dat2 V c).arrAt_eq_of_cover 2 _ (fun t _ => flushed_eq V c t) covered

end Cert.KernelIdeal.DenseTwo

end
-- ==== Proof.BiasTwo.lean ====
/-
  The second layer's bias region, read off its region.

  The region walks 25 grid points; point `t` loads rows `2000·t … 2000·t + 1999` of the aggregated features and the one
  row of the bias, adds the bias row to every row of the block and stores the block as rows
  `2000·t … 2000·t + 1999` of the result.  Entry `(r, q)` of the stored block depends on entry `(2000·t + r, q)` of the features and on
  entry `(0, q)` of the bias only; the 25 blocks tile the result's rows, so the result array ends holding `A + b`
  of the two arrays as the region finds them, entry by entry.
-/
import proofs.«160410_j9371618640020_1_alg».proof.Proof.Gen.KernelIdeal.Frame
import proofs.«160410_j9371618640020_1_alg».proof.Proof.DotAt
import Idealize.ShloMosaic.Lib.Pipeline.Value
import Idealize.ShloMosaic.Lib.ValueIdx
import Idealize.ShloMosaic.Lib.ValueLayout

set_option maxRecDepth 16384

noncomputable section

namespace Cert.KernelIdeal.BiasTwo

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The row `b` added to every row of `A`, entry by entry. -/
def rowBias (A : S50000x64.Idx → Elt Ideal .f32) (b : S1x64.Idx → Elt Ideal .f32) : S50000x64.Idx → Elt Ideal .f32 :=
  fun i => A i + b (ix2 (0 : Fin 1) (⟨(i 1).val, (i 1).isLt⟩ : Fin 64))

/-- The body's one stored value at `(p, q)`. -/
theorem payload_at (x0 : Vec Ideal S2000x64 .f32) (x1 : Vec Ideal S1x64 .f32) (p : Fin 2000) (q : Fin 64) :
    k3_pay1 x0 x1 (ix2 p q) = x0 (ix2 p q) + x1 (ix2 (0 : Fin 1) q) := by
  unfold k3_pay1
  show shapeCast S2000x64 x0 shapeCasts_S2000x64_S2000x64 (ix2 p q)
      + broadcastTo S2000x64 (shapeCast S1x64 x1 shapeCasts_S1x64_S1x64) broadcasts_S1x64_S2000x64 (ix2 p q) = _
  rw [shapeCast_self, shapeCast_self, broadcastTo_1b_ab_apply]

/-- The printed index maps over the grid: the features' and the result's row block is the point's number, every other
    block index is zero. -/
theorem index_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- One entry of a stored block against one entry of the whole-array function: equal once the block's entry `(p, q)` is
    entry `(P, q)` of the features and the bias block is the bias array. -/
theorem entry_eq (x0 : Vec Ideal S2000x64 .f32) (x1 : Vec Ideal S1x64 .f32) (A : FVec Ideal S50000x64 .f32) (b : FVec Ideal S1x64 .f32)
    (p : Fin 2000) (q : Fin 64) (P : Fin 50000)
    (h0 : x0 (ix2 p q) = A (ix2 P q)) (h1 : x1 (ix2 (0 : Fin 1) q) = b (ix2 (0 : Fin 1) q)) :
    k3_pay1 x0 x1 (ix2 p q) = rowBias A b (ix2 P q) := by
  rw [payload_at, h0, h1]
  rfl

/-- What point `t` writes back is block `t` of the whole-array function of the two arrays as the region finds them. -/
theorem flushed_eq (c : Dev nD) (t : Fin cfg3.N) :
    (dat3 V c).flushed 2 t = ((cfg3.win 2).blk t).view.read (Elt Ideal) (rowBias (V c main_v78) (V c main_v79)) := by
  show (cfg3.win 2).cut (grid3.coords t) ((dat3 V c).after 2 t) = _
  rw [after3_2]
  unfold out3_2
  rw [View.canon_unit_zero Cert.DotAt.zero_offsets]
  simp only [View.ld_unit_zero (S := S2000x64) Cert.DotAt.zero_offsets, View.ld_unit_zero (S := S1x64) Cert.DotAt.zero_offsets]
  obtain ⟨e0, e1, e2, e3, e4, e5⟩ := index_facts t
  funext j
  have ht : t.val < 25 := t.isLt
  obtain ⟨p, q, rfl⟩ : ∃ (p : Fin 2000) (q : Fin 64), j = ix2 p q := ⟨⟨(j 0).val, (j 0).isLt⟩, ⟨(j 1).val, (j 1).isLt⟩, eq_ix2 j⟩
  have hp : p.val < 2000 := p.isLt
  have hq : q.val < 64 := q.isLt
  have hi : ((cfg3.win 2).blk t).view.emb (ix2 p q) = ix2 (⟨t.val * 2000 + p.val, by omega⟩ : Fin 50000) q := by
    funext a; apply Fin.ext
    match a with
    | ⟨0, _⟩ => show win3_2.index t (0 : Fin 2) * 2000 + 1 * p.val = t.val * 2000 + p.val; rw [e4]; omega
    | ⟨1, _⟩ => show win3_2.index t (1 : Fin 2) * 64 + 1 * q.val = q.val; rw [e5]; omega
  show k3_pay1 (iblk3 V c 0 t) (iblk3 V c 1 t) (ix2 p q) = rowBias (V c main_v78) (V c main_v79) (((cfg3.win 2).blk t).view.emb (ix2 p q))
  rw [hi]
  refine entry_eq _ _ _ _ _ _ _ ?_ ?_
  · refine (congrArg (V c main_v78) ?_ : V c main_v78 (((cfg3.win 0).blk t).view.emb (ix2 p q)) = _)
    funext a; apply Fin.ext
    match a with
    | ⟨0, _⟩ => show win3_0.index t (0 : Fin 2) * 2000 + 1 * p.val = t.val * 2000 + p.val; rw [e0]; omega
    | ⟨1, _⟩ => show win3_0.index t (1 : Fin 2) * 64 + 1 * q.val = q.val; rw [e1]; omega
  · refine (congrArg (V c main_v79) ?_ : V c main_v79 (((cfg3.win 1).blk t).view.emb (ix2 (0 : Fin 1) q)) = _)
    funext a; apply Fin.ext
    match a with
    | ⟨0, _⟩ => show win3_1.index t (0 : Fin 2) * 1 + 1 * 0 = 0; rw [e2]
    | ⟨1, _⟩ => show win3_1.index t (1 : Fin 2) * 64 + 1 * q.val = q.val; rw [e3]; omega

/-- An index of the result array is in point `t`'s block iff each coordinate is in the block's range on its axis. -/
theorem mem_block (t : Fin cfg3.N) (i : S50000x64.Idx) :
    i ∈ ((cfg3.win 2).blk t).view.set ↔ ∀ a : Fin 2, win3_2.index t a * S2000x64.size a ≤ (i a).val ∧ (i a).val < win3_2.index t a * S2000x64.size a + S2000x64.size a := by
  show i ∈ ((View.whole main_v80).slice (win3_2.rect t)).set ↔ _
  rw [View.set_slice_whole, Rect.mem_set_unit]
  exact Iff.rfl

/-- Every index of the result array is in the block of the point its row falls in. -/
theorem covered (i : S50000x64.Idx) : ∃ t : Fin cfg3.N, (cfg3.win 2).flush t = true ∧ i ∈ ((cfg3.win 2).blk t).view.set := by
  have hi0 : (i 0).val < 50000 := (i 0).isLt
  have hi1 : (i 1).val < 64 := (i 1).isLt
  have hN : cfg3.N = 25 := N_3
  have hlt : (i 0).val / 2000 < cfg3.N := by rw [hN]; omega
  obtain ⟨e0, e1, e2, e3, e4, e5⟩ := index_facts ⟨(i 0).val / 2000, hlt⟩
  refine ⟨⟨(i 0).val / 2000, hlt⟩, flush3_2 _, ?_⟩
  rw [mem_block]
  intro a
  match a with
  | ⟨0, _⟩ =>
    show win3_2.index ⟨(i 0).val / 2000, hlt⟩ (0 : Fin 2) * 2000 ≤ (i 0).val ∧ (i 0).val < win3_2.index ⟨(i 0).val / 2000, hlt⟩ (0 : Fin 2) * 2000 + 2000
    rw [e4]; show (i 0).val / 2000 * 2000 ≤ (i 0).val ∧ (i 0).val < (i 0).val / 2000 * 2000 + 2000; omega
  | ⟨1, _⟩ =>
    show win3_2.index ⟨(i 0).val / 2000, hlt⟩ (1 : Fin 2) * 64 ≤ (i 1).val ∧ (i 1).val < win3_2.index ⟨(i 0).val / 2000, hlt⟩ (1 : Fin 2) * 64 + 64
    rw [e5]; omega

/-- The result array after the region: the whole-array function of the two arrays as the region finds them. -/
theorem result (c : Dev nD) :
    (dat3 V c).arrAt 2 cfg3.N = rowBias (V c main_v78) (V c main_v79) :=
  (dat3 V c).arrAt_eq_of_cover 2 _ (fun t _ => flushed_eq V c t) covered

end Cert.KernelIdeal.BiasTwo

end
-- ==== Proof.LibHostRead.lean ====
/-
  Reading a buffer after a stretch of host operations, some of them from outlined functions.

  The contents of a device's buffers after a list of host operations are a fold over the list (`StableHlo.after`): each
  operation replaces its result buffer by its function of its operands' contents and leaves every other buffer. Read at one
  buffer, the fold is that buffer's composed term of the contents before the list.

  An outlined function's operations (a `where`, a `relu`) name their buffers through typed references, and what such an
  operation reads or writes is moved between the value's type and the buffer's own type by a transport along an equation
  between the two types. For a typed reference to a literal buffer that equation holds by computation, so the transport is
  the identity: `toBuf_of` and `ofBuf_of`, by reflexivity, for any signature and any type of values. Rewriting with them
  removes every transport from a composed term. That matters for what comes next: an equation between two composed terms
  with the same operations at the same places is decided argument by argument, but a transport at the head of one side
  hides that, and the comparison then opens `select`, the float comparison or `maximumf` down to their elementwise
  definitions and from there the host's scatter and gather over their whole index ranges.

  `read_results` does the reading: one simp pass over the fold; then, for results the pass leaves standing inside a list
  of operands (the pieces of a `concatenate`), the same two rules by rewriting in place until none applies; then the
  transports. What is left is an equation between terms of the PureOps operations over the contents before the list.
-/
import Idealize.ShloMosaic.Lib.StableHlo.Run

namespace Cert.HostRead

open Idealize.ShloMosaic Idealize.ShloMosaic.StableHlo

variable {sig : RefSig} {Val : EltTy → Type}

/-- Contents moved to a literal buffer's own type are themselves. -/
theorem toBuf_of (r : Ref sig .tc) (h1 : r.ty = r.ty) (h2 : r.space ≠ .host) (h3 : r.isScoped = false)
    (v : r.ty.Contents Val) : (TRef.of r h1 h2 h3 : TRef sig r.ty).toBuf v = v := rfl

/-- Contents moved back from a literal buffer's own type are themselves. -/
theorem ofBuf_of (r : Ref sig .tc) (h1 : r.ty = r.ty) (h2 : r.space ≠ .host) (h3 : r.isScoped = false)
    (v : r.ty.Contents Val) : (TRef.of r h1 h2 h3 : TRef sig r.ty).ofBuf v = v := rfl

/-- Reads a goal `after ops V (Proc.devRef .tc r) = …`, `ops` a literal list of operations over literal buffers, as the
    operations' composed term of `V` at the buffers the list does not write. -/
macro "read_results" : tactic =>
  `(tactic| (after_results_simp
             repeat (first
               | rw [nullary_result] | rw [unary_result] | rw [binary_result] | rw [ternary_result] | rw [reshape_result]
               | (rw [nullary_result_ne]; rotate_left; decide)
               | (rw [unary_result_ne]; rotate_left; decide)
               | (rw [binary_result_ne]; rotate_left; decide)
               | (rw [ternary_result_ne]; rotate_left; decide)
               | (rw [reshape_result_ne]; rotate_left; decide))
             repeat (first | rw [toBuf_of] | rw [ofBuf_of])))

end Cert.HostRead
-- ==== Proof.Chain.lean ====
/-
  The contents of the kernel's buffers, boundary by boundary, in the reference's own terms.

  Both programs compute a two-layer graph convolution.  With the self loops appended to the edge list, `row`, `col` the
  two index vectors and `norm` the symmetric normalisation `d^(-1/2)[row] · w · d^(-1/2)[col]` of the edge weights
  (`d` the weighted in-degree), a layer is `agg (X · W) + b` where `agg Y` adds `norm e · Y[row e]` into row `col e` for every
  edge `e`; the first layer's result goes through `max · 0`.  The kernel computes `row`, `col`, `norm` and both
  aggregations with the very host operations the reference uses, and the four remaining steps — the two products and the
  two bias additions — in its four regions.  So, reading the kernel's buffers at its segment boundaries:
  the index vectors and the normalisation are the reference's stages of the same name; the first region leaves the
  reference's first product; the host stretch after it the first aggregation; the second region `max (agg + b₁, 0)`, which
  is the reference's rectified first layer entry by entry (the kernel reshapes the bias to one row and adds that row to
  every row of a block, the reference broadcasts it to the whole array); the third region the second product; the next
  stretch the second aggregation; the last region the reference's result.  Nothing here uses finiteness: the two sides
  apply the same operations to the same operands in the same order.
-/
import proofs.«160410_j9371618640020_1_alg».proof.Proof.Gen.KernelIdeal.Frame
import proofs.«160410_j9371618640020_1_alg».proof.Proof.Gen.ReferenceIdeal.Read
import proofs.«160410_j9371618640020_1_alg».proof.Proof.DenseOne
import proofs.«160410_j9371618640020_1_alg».proof.Proof.BiasOne
import proofs.«160410_j9371618640020_1_alg».proof.Proof.DenseTwo
import proofs.«160410_j9371618640020_1_alg».proof.Proof.BiasTwo
import Idealize.ShloMosaic.Lib.StableHlo.Run
import Idealize.ShloMosaic.Lib.ValueLayout
import proofs.«160410_j9371618640020_1_alg».proof.Proof.LibHostRead

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo Idealize.ShloMosaic.ValueIdx
open Cert.ReferenceIdeal.Read (val_main_v6 val_main_v8 val_main_v10 val_main_v20 val_main_v21 val_main_cst_3 val_main_v22 val_main_v38 val_main_v39 val_main_v57 val_main_v61 val_main_v62 val_main_v80 val_main_v83)

variable (m : (ℓ : Loc nD τ sig) → Buf (Elt Ideal) ℓ) (ρ : Dev nD → PrngReg) (c : Dev nD)

/-! ## The argument arrays are never written -/

theorem arg0_at3 : W3 m ρ c (Proc.devRef .tc main_arg0) = m ((c : Thread nD τ).loc main_arg0) := by
  show StableHlo.after hostOps0_2 (StableHlo.after hostOps0_1 (StableHlo.after hostOps0 (W0 m ρ c))) (Proc.devRef .tc main_arg0) = _
  after_results_simp
theorem arg3_at3 : W3 m ρ c (Proc.devRef .tc main_arg3) = m ((c : Thread nD τ).loc main_arg3) := by
  show StableHlo.after hostOps0_2 (StableHlo.after hostOps0_1 (StableHlo.after hostOps0 (W0 m ρ c))) (Proc.devRef .tc main_arg3) = _
  after_results_simp
theorem arg4_at3 : W3 m ρ c (Proc.devRef .tc main_arg4) = m ((c : Thread nD τ).loc main_arg4) := by
  show StableHlo.after hostOps0_2 (StableHlo.after hostOps0_1 (StableHlo.after hostOps0 (W0 m ρ c))) (Proc.devRef .tc main_arg4) = _
  after_results_simp
theorem arg5_at3 : W3 m ρ c (Proc.devRef .tc main_arg5) = m ((c : Thread nD τ).loc main_arg5) := by
  show StableHlo.after hostOps0_2 (StableHlo.after hostOps0_1 (StableHlo.after hostOps0 (W0 m ρ c))) (Proc.devRef .tc main_arg5) = _
  after_results_simp
theorem arg6_at3 : W3 m ρ c (Proc.devRef .tc main_arg6) = m ((c : Thread nD τ).loc main_arg6) := by
  show StableHlo.after hostOps0_2 (StableHlo.after hostOps0_1 (StableHlo.after hostOps0 (W0 m ρ c))) (Proc.devRef .tc main_arg6) = _
  after_results_simp

theorem arg4_at4 : W4 m ρ c (Proc.devRef .tc main_arg4) = m ((c : Thread nD τ).loc main_arg4) :=
  (W4_of_ne m ρ c main_arg4 (by decide)).trans (arg4_at3 m ρ c)
theorem arg5_at4 : W4 m ρ c (Proc.devRef .tc main_arg5) = m ((c : Thread nD τ).loc main_arg5) :=
  (W4_of_ne m ρ c main_arg5 (by decide)).trans (arg5_at3 m ρ c)
theorem arg6_at4 : W4 m ρ c (Proc.devRef .tc main_arg6) = m ((c : Thread nD τ).loc main_arg6) :=
  (W4_of_ne m ρ c main_arg6 (by decide)).trans (arg6_at3 m ρ c)

theorem arg5_at5 : W5 m ρ c (Proc.devRef .tc main_arg5) = m ((c : Thread nD τ).loc main_arg5) := by
  refine Eq.trans ?_ (arg5_at4 m ρ c)
  show StableHlo.after hostOps1 (W4 m ρ c) (Proc.devRef .tc main_arg5) = _
  after_results_simp
theorem arg6_at5 : W5 m ρ c (Proc.devRef .tc main_arg6) = m ((c : Thread nD τ).loc main_arg6) := by
  refine Eq.trans ?_ (arg6_at4 m ρ c)
  show StableHlo.after hostOps1 (W4 m ρ c) (Proc.devRef .tc main_arg6) = _
  after_results_simp

theorem arg5_at6 : W6 m ρ c (Proc.devRef .tc main_arg5) = m ((c : Thread nD τ).loc main_arg5) :=
  (W6_of_ne m ρ c main_arg5 (by decide)).trans (arg5_at5 m ρ c)
theorem arg6_at7 : W7 m ρ c (Proc.devRef .tc main_arg6) = m ((c : Thread nD τ).loc main_arg6) :=
  (W7_of_ne m ρ c main_arg6 (by decide)).trans ((W6_of_ne m ρ c main_arg6 (by decide)).trans (arg6_at5 m ρ c))

/-! ## The index vectors and the normalisation: the reference's stages

The host operations before the first region run in three stretches — the edge list with its self loops, the in-degree
and its inverse square root; the outlined `where` that zeroes the inverse square root of an empty degree; the two gathers
and two products of the normalisation.  Each stretch is read from an arbitrary valuation that holds the previous
stretch's results, so that each comparison with the reference's stage is between small terms. -/

section Steps

open Cert.HostRead

variable (Wv : Valuation τ sig (Elt Ideal))
  (x1 : (⟨S2x800000, .i32⟩ : BufTy).Contents (Elt Ideal)) (x2 : (⟨S800000, .f32⟩ : BufTy).Contents (Elt Ideal))

/-- The edge weights with a one appended for every self loop. -/
theorem weights_step (h2 : Wv (Proc.devRef .tc main_arg2) = x2) :
    StableHlo.after hostOps0 Wv (Proc.devRef .tc main_v6) = val_main_v6 (F := Ideal) x2 := by
  read_results
  rw [h2]
  rfl
/-- The source index of every edge, self loops appended. -/
theorem row_step (h1 : Wv (Proc.devRef .tc main_arg1) = x1) :
    StableHlo.after hostOps0 Wv (Proc.devRef .tc main_v8) = val_main_v8 (F := Ideal) x1 := by
  read_results
  rw [h1]
  rfl
/-- The destination index of every edge, self loops appended. -/
theorem col_step (h1 : Wv (Proc.devRef .tc main_arg1) = x1) :
    StableHlo.after hostOps0 Wv (Proc.devRef .tc main_v10) = val_main_v10 (F := Ideal) x1 := by
  read_results
  rw [h1]
  rfl
/-- Where the weighted in-degree is positive. -/
theorem degpos_step (h1 : Wv (Proc.devRef .tc main_arg1) = x1) (h2 : Wv (Proc.devRef .tc main_arg2) = x2) :
    StableHlo.after hostOps0 Wv (Proc.devRef .tc main_v20) = val_main_v20 (F := Ideal) x1 x2 := by
  read_results
  rw [h1, h2]
  rfl
/-- The inverse square root of the weighted in-degree. -/
theorem rsqrt_step (h1 : Wv (Proc.devRef .tc main_arg1) = x1) (h2 : Wv (Proc.devRef .tc main_arg2) = x2) :
    StableHlo.after hostOps0 Wv (Proc.devRef .tc main_v21) = val_main_v21 (F := Ideal) x1 x2 := by
  read_results
  rw [h1, h2]
  rfl
/-- The zero the `where` falls back to. -/
theorem zero_step : StableHlo.after hostOps0 Wv (Proc.devRef .tc main_cst_3) = val_main_cst_3 (F := Ideal) := by
  read_results
  rfl

/-- The inverse square root of the degree where it is positive, zero elsewhere. -/
theorem dinv_step (h20 : Wv (Proc.devRef .tc main_v20) = val_main_v20 (F := Ideal) x1 x2)
    (h21 : Wv (Proc.devRef .tc main_v21) = val_main_v21 (F := Ideal) x1 x2)
    (h3 : Wv (Proc.devRef .tc main_cst_3) = val_main_cst_3 (F := Ideal)) :
    StableHlo.after hostOps0_1 Wv (Proc.devRef .tc main_v22) = val_main_v22 (F := Ideal) x1 x2 := by
  read_results
  rw [h20, h21, h3]
  rfl
theorem where_keeps_v6 : StableHlo.after hostOps0_1 Wv (Proc.devRef .tc main_v6) = Wv (Proc.devRef .tc main_v6) := by
  read_results
theorem where_keeps_v8 : StableHlo.after hostOps0_1 Wv (Proc.devRef .tc main_v8) = Wv (Proc.devRef .tc main_v8) := by
  read_results
theorem where_keeps_v10 : StableHlo.after hostOps0_1 Wv (Proc.devRef .tc main_v10) = Wv (Proc.devRef .tc main_v10) := by
  read_results

/-- The normalisation `dinv[row] · w · dinv[col]`. -/
theorem norm_step (h22 : Wv (Proc.devRef .tc main_v22) = val_main_v22 (F := Ideal) x1 x2)
    (h8 : Wv (Proc.devRef .tc main_v8) = val_main_v8 (F := Ideal) x1)
    (h10 : Wv (Proc.devRef .tc main_v10) = val_main_v10 (F := Ideal) x1)
    (h6 : Wv (Proc.devRef .tc main_v6) = val_main_v6 (F := Ideal) x2) :
    StableHlo.after hostOps0_2 Wv (Proc.devRef .tc main_v38) = val_main_v38 (F := Ideal) x1 x2 := by
  read_results
  rw [h22, h8, h10, h6]
  rfl
theorem norm_keeps_v8 : StableHlo.after hostOps0_2 Wv (Proc.devRef .tc main_v8) = Wv (Proc.devRef .tc main_v8) := by
  read_results
theorem norm_keeps_v10 : StableHlo.after hostOps0_2 Wv (Proc.devRef .tc main_v10) = Wv (Proc.devRef .tc main_v10) := by
  read_results

end Steps

theorem row_at3 : W3 m ρ c (Proc.devRef .tc main_v8) = val_main_v8 (F := Ideal) (m ((c : Thread nD τ).loc main_arg1)) :=
  (norm_keeps_v8 (W2 m ρ c)).trans ((where_keeps_v8 (W1 m ρ c)).trans (row_step (W0 m ρ c) _ rfl))
theorem col_at3 : W3 m ρ c (Proc.devRef .tc main_v10) = val_main_v10 (F := Ideal) (m ((c : Thread nD τ).loc main_arg1)) :=
  (norm_keeps_v10 (W2 m ρ c)).trans ((where_keeps_v10 (W1 m ρ c)).trans (col_step (W0 m ρ c) _ rfl))
theorem norm_at3 : W3 m ρ c (Proc.devRef .tc main_v38) = val_main_v38 (F := Ideal) (m ((c : Thread nD τ).loc main_arg1)) (m ((c : Thread nD τ).loc main_arg2)) :=
  norm_step (W2 m ρ c) _ _
    (dinv_step (W1 m ρ c) _ _ (degpos_step (W0 m ρ c) _ _ rfl rfl) (rsqrt_step (W0 m ρ c) _ _ rfl rfl) (zero_step (W0 m ρ c)))
    ((where_keeps_v8 (W1 m ρ c)).trans (row_step (W0 m ρ c) _ rfl))
    ((where_keeps_v10 (W1 m ρ c)).trans (col_step (W0 m ρ c) _ rfl))
    ((where_keeps_v6 (W1 m ρ c)).trans (weights_step (W0 m ρ c) _ rfl))

theorem row_at4 : W4 m ρ c (Proc.devRef .tc main_v8) = val_main_v8 (F := Ideal) (m ((c : Thread nD τ).loc main_arg1)) :=
  (W4_of_ne m ρ c main_v8 (by decide)).trans (row_at3 m ρ c)
theorem col_at4 : W4 m ρ c (Proc.devRef .tc main_v10) = val_main_v10 (F := Ideal) (m ((c : Thread nD τ).loc main_arg1)) :=
  (W4_of_ne m ρ c main_v10 (by decide)).trans (col_at3 m ρ c)
theorem norm_at4 : W4 m ρ c (Proc.devRef .tc main_v38)
    = val_main_v38 (F := Ideal) (m ((c : Thread nD τ).loc main_arg1)) (m ((c : Thread nD τ).loc main_arg2)) :=
  (W4_of_ne m ρ c main_v38 (by decide)).trans (norm_at3 m ρ c)

theorem row_at7 : W7 m ρ c (Proc.devRef .tc main_v8) = val_main_v8 (F := Ideal) (m ((c : Thread nD τ).loc main_arg1)) := by
  refine (W7_of_ne m ρ c main_v8 (by decide)).trans ((W6_of_ne m ρ c main_v8 (by decide)).trans (Eq.trans ?_ (row_at4 m ρ c)))
  show StableHlo.after hostOps1 (W4 m ρ c) (Proc.devRef .tc main_v8) = _
  after_results_simp
theorem col_at7 : W7 m ρ c (Proc.devRef .tc main_v10) = val_main_v10 (F := Ideal) (m ((c : Thread nD τ).loc main_arg1)) := by
  refine (W7_of_ne m ρ c main_v10 (by decide)).trans ((W6_of_ne m ρ c main_v10 (by decide)).trans (Eq.trans ?_ (col_at4 m ρ c)))
  show StableHlo.after hostOps1 (W4 m ρ c) (Proc.devRef .tc main_v10) = _
  after_results_simp
theorem norm_at7 : W7 m ρ c (Proc.devRef .tc main_v38)
    = val_main_v38 (F := Ideal) (m ((c : Thread nD τ).loc main_arg1)) (m ((c : Thread nD τ).loc main_arg2)) := by
  refine (W7_of_ne m ρ c main_v38 (by decide)).trans ((W6_of_ne m ρ c main_v38 (by decide)).trans (Eq.trans ?_ (norm_at4 m ρ c)))
  show StableHlo.after hostOps1 (W4 m ρ c) (Proc.devRef .tc main_v38) = _
  after_results_simp

/-! ## The first layer -/

/-- After the first region: the first product. -/
theorem xw1_at4 : W4 m ρ c (Proc.devRef .tc main_v39) = val_main_v39 (F := Ideal) (m ((c : Thread nD τ).loc main_arg0)) (m ((c : Thread nD τ).loc main_arg3)) := by
  refine (W4_arr m ρ c 2).trans ((DenseOne.result (V3 m ρ) c).trans ?_)
  show DenseOne.product (W3 m ρ c (Proc.devRef .tc main_arg0)) (W3 m ρ c (Proc.devRef .tc main_arg3)) = _
  rw [arg0_at3, arg3_at3]
  rfl

/-- After the host stretch that follows: the first aggregation. -/
theorem agg1_at5 : W5 m ρ c (Proc.devRef .tc main_v57) = val_main_v57 (F := Ideal) (m ((c : Thread nD τ).loc main_arg0)) (m ((c : Thread nD τ).loc main_arg1)) (m ((c : Thread nD τ).loc main_arg2)) (m ((c : Thread nD τ).loc main_arg3)) := by
  show StableHlo.after hostOps1 (W4 m ρ c) (Proc.devRef .tc main_v57) = _
  after_results_simp
  rw [row_at4, col_at4, norm_at4, xw1_at4]
  rfl

/-- The first bias as one row. -/
theorem b1_at5 : W5 m ρ c (Proc.devRef .tc main_v58) = shapeCast S1x128 (m ((c : Thread nD τ).loc main_arg4)) shapeCasts_S128_S1x128 := by
  show StableHlo.after hostOps1 (W4 m ρ c) (Proc.devRef .tc main_v58) = _
  after_results_simp
  rw [arg4_at4]
  rfl

/-- After the second region: the rectified first layer.  Entry `(p, q)` is `max (agg₁ (p, q) + b₁ q, 0)` on both sides: the
    kernel reads the bias through its one-row reshape, the reference through its two broadcasts. -/
theorem h_at6 : W6 m ρ c (Proc.devRef .tc main_v59) = val_main_v61 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W6_arr m ρ c 2).trans ((BiasOne.result (V5 m ρ) c).trans ?_)
  show BiasOne.rowBiasRelu (W5 m ρ c (Proc.devRef .tc main_v57)) (W5 m ρ c (Proc.devRef .tc main_v58)) = _
  rw [agg1_at5, b1_at5]
  funext i
  obtain ⟨p, q, rfl⟩ : ∃ (p : Fin 50000) (q : Fin 128), i = ix2 p q := ⟨⟨(i 0).val, (i 0).isLt⟩, ⟨(i 1).val, (i 1).isLt⟩, eq_ix2 i⟩
  rw [Cert.ReferenceIdeal.Read.val_main_v61_apply, Cert.ReferenceIdeal.Read.val_main_v60_apply, Cert.ReferenceIdeal.Read.val_main_v59_apply,
    Cert.ReferenceIdeal.Read.val_main_v58_apply, Cert.ReferenceIdeal.Read.val_main_call1_v0_apply, Cert.ReferenceIdeal.Read.val_main_call1_cst_apply]
  have e : shapeCast S1x128 (m ((c : Thread nD τ).loc main_arg4)) shapeCasts_S128_S1x128 (ix2 (0 : Fin 1) q) = (m ((c : Thread nD τ).loc main_arg4)) (ix1 q) :=
    shapeCast_a_1a_apply _ _ 0 q
  have e' : Cert.ReferenceIdeal.Read.idx_main_v58 (Cert.ReferenceIdeal.Read.idx_main_v59 (ix2 p q)) = ix1 q :=
    funext fun a => Fin.ext (by match a with | ⟨0, _⟩ => rfl)
  rw [e']
  unfold BiasOne.rowBiasRelu
  show max (_ + shapeCast S1x128 (m ((c : Thread nD τ).loc main_arg4)) shapeCasts_S128_S1x128 (ix2 (0 : Fin 1) q)) _ = _
  rw [e]
  rfl

/-! ## The second layer -/

/-- After the third region: the second product. -/
theorem xw2_at7 : W7 m ρ c (Proc.devRef .tc main_v60) = val_main_v62 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W7_arr m ρ c 2).trans ((DenseTwo.result (V6 m ρ) c).trans ?_)
  show DenseTwo.product (W6 m ρ c (Proc.devRef .tc main_v59)) (W6 m ρ c (Proc.devRef .tc main_arg5)) = _
  rw [h_at6, arg5_at6]
  rfl

/-- After the host stretch that follows: the second aggregation. -/
theorem agg2_at8 : W8 m ρ c (Proc.devRef .tc main_v78) = val_main_v80 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  show StableHlo.after hostOps3 (W7 m ρ c) (Proc.devRef .tc main_v78) = _
  after_results_simp
  rw [row_at7, col_at7, norm_at7, xw2_at7]
  rfl

/-- The second bias as one row. -/
theorem b2_at8 : W8 m ρ c (Proc.devRef .tc main_v79) = shapeCast S1x64 (m ((c : Thread nD τ).loc main_arg6)) shapeCasts_S64_S1x64 := by
  show StableHlo.after hostOps3 (W7 m ρ c) (Proc.devRef .tc main_v79) = _
  after_results_simp
  rw [arg6_at7]
  rfl

/-- After the last region: the reference's result.  Entry `(p, q)` is `agg₂ (p, q) + b₂ q` on both sides. -/
theorem out_at9 : W9 m ρ c (Proc.devRef .tc main_v80) = val_main_v83 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W9_arr m ρ c 2).trans ((BiasTwo.result (V8 m ρ) c).trans ?_)
  show BiasTwo.rowBias (W8 m ρ c (Proc.devRef .tc main_v78)) (W8 m ρ c (Proc.devRef .tc main_v79)) = _
  rw [agg2_at8, b2_at8]
  funext i
  obtain ⟨p, q, rfl⟩ : ∃ (p : Fin 50000) (q : Fin 64), i = ix2 p q := ⟨⟨(i 0).val, (i 0).isLt⟩, ⟨(i 1).val, (i 1).isLt⟩, eq_ix2 i⟩
  rw [Cert.ReferenceIdeal.Read.val_main_v83_apply, Cert.ReferenceIdeal.Read.val_main_v82_apply, Cert.ReferenceIdeal.Read.val_main_v81_apply]
  have e : shapeCast S1x64 (m ((c : Thread nD τ).loc main_arg6)) shapeCasts_S64_S1x64 (ix2 (0 : Fin 1) q) = (m ((c : Thread nD τ).loc main_arg6)) (ix1 q) :=
    shapeCast_a_1a_apply _ _ 0 q
  have e' : Cert.ReferenceIdeal.Read.idx_main_v81 (Cert.ReferenceIdeal.Read.idx_main_v82 (ix2 p q)) = ix1 q :=
    funext fun a => Fin.ext (by match a with | ⟨0, _⟩ => rfl)
  rw [e']
  unfold BiasTwo.rowBias
  show _ + shapeCast S1x64 (m ((c : Thread nD τ).loc main_arg6)) shapeCasts_S64_S1x64 (ix2 (0 : Fin 1) q) = _
  rw [e]
  rfl

end Cert.KernelIdeal.Chain

end
-- ==== Proof.lean ====
/-
  A two-layer graph convolution in four TensorCore regions against its plain jnp reference, on the extended reals.

  Both programs append a self loop to every node, compute the weighted in-degree `d` over destination indices, the
  normalisation `norm e = d^(-1/2)[row e] · w e · d^(-1/2)[col e]` (an empty degree giving zero), and twice the layer
  `agg (X · W) + b`, where `agg Y` adds `norm e · Y[row e]` into row `col e` for every edge; the first layer's result goes
  through `max · 0`.  The kernel keeps the edge arithmetic, both gathers and both scatter-adds on the host, exactly as the
  reference writes them, and runs four regions: the product `X · W₁` and the product `H · W₂`, each tiled into 25 row blocks
  of 2000 with the operands cast to bf16 (the identity on the extended reals) and accumulated from zero, and the two bias
  additions, again 25 row blocks, the first followed by `max · 0`.

  What is proved, and where:
  * each region leaves in its result array one whole-array function of its operand arrays — the host's `dot_general`
    (DenseOne, DenseTwo), `max (A + b, 0)` and `A + b` row-wise (BiasOne, BiasTwo) — because point `t` writes block `t` of
    that function and the 25 blocks tile the rows;
  * the run of the kernel's @main ends with the result buffer at what the fold through its nine segments leaves there
    (RunValue);
  * read boundary by boundary, that fold is the reference's own stage at every step (Chain): the same host operations on
    the same operands, the regions' functions in place of the reference's `dot_general`, `add`, `maximum`.
  The two results are therefore one term of the arguments; no law of the extended reals beyond that is used, and the
  precondition is never opened.  The idealization pass rewrote nothing, so `preserves` holds trivially.
-/
import proofs.«160410_j9371618640020_1_alg».proof.Defs
import proofs.«160410_j9371618640020_1_alg».proof.Proof.Gen.Kernel
import proofs.«160410_j9371618640020_1_alg».proof.Proof.Gen.Kernel.Skeleton
import proofs.«160410_j9371618640020_1_alg».proof.Proof.Gen.Kernel.Launch
import proofs.«160410_j9371618640020_1_alg».proof.Proof.Gen.Kernel.Points
import proofs.«160410_j9371618640020_1_alg».proof.Proof.Gen.Kernel.Frame
import proofs.«160410_j9371618640020_1_alg».proof.Proof.Gen.KernelIdeal
import proofs.«160410_j9371618640020_1_alg».proof.Proof.Gen.KernelIdeal.Skeleton
import proofs.«160410_j9371618640020_1_alg».proof.Proof.Gen.KernelIdeal.Launch
import proofs.«160410_j9371618640020_1_alg».proof.Proof.Gen.KernelIdeal.Points
import proofs.«160410_j9371618640020_1_alg».proof.Proof.Gen.KernelIdeal.Frame
import proofs.«160410_j9371618640020_1_alg».proof.Proof.Gen.ReferenceIdeal
import proofs.«160410_j9371618640020_1_alg».proof.Proof.Gen.ReferenceIdeal.Run
import proofs.«160410_j9371618640020_1_alg».proof.Proof.Gen.ReferenceIdeal.Read
import proofs.«160410_j9371618640020_1_alg».proof.Proof.Gen.Pre_finite_inputs
import proofs.«160410_j9371618640020_1_alg».proof.Proof.RunValue
import proofs.«160410_j9371618640020_1_alg».proof.Proof.Chain
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the idealized reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization pass rewrote no operation. -/
theorem preserves : Cert.preserves_Kernel_KernelIdeal := trivial

/-- From memories agreeing on the seven arguments both programs end with the reference's last stage of those
    arguments in their result buffers. -/
theorem algebraic : Cert.algebraic_KernelIdeal_ReferenceIdeal := by
  intro m ρ m' ρ' _ hagree
  refine ⟨fun c => Cert.ReferenceIdeal.Read.val_main_v83 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.Chain.out_at9 m ρ c), (h c).2⟩)
      (Cert.KernelIdeal.RunValue.run_result m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v83_eq]
    obtain ⟨e0, e1, e2, e3, e4, e5, e6⟩ := hagree c
    rw [e0, e1, e2, e3, e4, e5, e6]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
